-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S1x200x128 : Shape := ⟨3, ![1, 200, 128]⟩
abbrev S45x2048 : Shape := ⟨2, ![45, 2048]⟩
abbrev S3x2048 : Shape := ⟨2, ![3, 2048]⟩
abbrev S3 : Shape := ⟨1, ![3]⟩
abbrev S128x2048 : Shape := ⟨2, ![128, 2048]⟩
abbrev S128 : Shape := ⟨1, ![128]⟩
abbrev S6144x2176 : Shape := ⟨2, ![6144, 2176]⟩
abbrev S6144x2048 : Shape := ⟨2, ![6144, 2048]⟩
abbrev S6144 : Shape := ⟨1, ![6144]⟩
abbrev S45 : Shape := ⟨1, ![45]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S1x200x128 : S_.BroadcastsInDim S1x200x128 (![] : Fin 0 → Fin S1x200x128.rank)
  reducesTo_S1x200x128_S_d0_1_2 : S1x200x128.ReducesTo [0, 1, 2] S_
  bcast_S_S45x2048 : S_.BroadcastsInDim S45x2048 (![] : Fin 0 → Fin S45x2048.rank)
  reducesTo_S45x2048_S_d0_1 : S45x2048.ReducesTo [0, 1] S_
  bcast_S_S3x2048 : S_.BroadcastsInDim S3x2048 (![] : Fin 0 → Fin S3x2048.rank)
  reducesTo_S3x2048_S_d0_1 : S3x2048.ReducesTo [0, 1] S_
  bcast_S_S3 : S_.BroadcastsInDim S3 (![] : Fin 0 → Fin S3.rank)
  reducesTo_S3_S_d0 : S3.ReducesTo [0] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S6144x2176 : S_.BroadcastsInDim S6144x2176 (![] : Fin 0 → Fin S6144x2176.rank)
  reducesTo_S6144x2176_S_d0_1 : S6144x2176.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S45 : S_.BroadcastsInDim S45 (![] : Fin 0 → Fin S45.rank)
  reducesTo_S45_S_d0 : S45.ReducesTo [0] S_

variable [Facts]

def fn_part3 {F : FTy → Type} [FloatOps F] (main_arg12 : FVec F S45x2048 .f32) (main_arg13 : FVec F S45 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S45x2048 .f32 := Host.absf main_arg12
  let main_cst_20 : FVec F S_ .f32 := constant S_ .f32 0x7F800000#32
  let main_v55 : FVec F S45x2048 .f32 := broadcastInDim S45x2048 ![] bcast_S_S45x2048 main_cst_20
  let main_v56 : IVec S45x2048 1 := cmpf .olt main_v54 main_v55
  let main_c_21 : IVec S_ 1 := constantI S_ 1 1#1
  let main_v57 : IVec S_ 1 := (fun x v => Host.reduce IntOp.andi x v reducesTo_S45x2048_S_d0_1 h_S_) main_v56 main_c_21
  let main_v58 : IVec S_ 1 := andi main_v53 main_v57
  let main_v59 : FVec F S45 .f32 := Host.absf main_arg13
  let main_cst_22 : FVec F S_ .f32 := constant S_ .f32 0x7F800000#32
  let main_v60 : FVec F S45 .f32 := broadcastInDim S45 ![] bcast_S_S45 main_cst_22
  let main_v61 : IVec S45 1 := cmpf .olt main_v59 main_v60
  let main_c_23 : IVec S_ 1 := constantI S_ 1 1#1
  let main_v62 : IVec S_ 1 := (fun x v => Host.reduce IntOp.andi x v reducesTo_S45_S_d0 h_S_) main_v61 main_c_23
  let main_v63 : IVec S_ 1 := andi main_v58 main_v62
  main_v63

def fn_part2 {F : FTy → Type} [FloatOps F] (main_arg8 : FVec F S6144x2176 .f32) (main_arg9 : FVec F S6144x2048 .f32) (main_arg10 : FVec F S6144 .f32) (main_arg11 : FVec F S6144 .f32) (main_arg12 : FVec F S45x2048 .f32) (main_arg13 : FVec F S45 .f32) (main_v33 : IVec S_ 1) : IVec S_ 1 :=
  let main_v34 : FVec F S6144x2176 .f32 := Host.absf main_arg8
  let main_cst_12 : FVec F S_ .f32 := constant S_ .f32 0x7F800000#32
  let main_v35 : FVec F S6144x2176 .f32 := broadcastInDim S6144x2176 ![] bcast_S_S6144x2176 main_cst_12
  let main_v36 : IVec S6144x2176 1 := cmpf .olt main_v34 main_v35
  let main_c_13 : IVec S_ 1 := constantI S_ 1 1#1
  let main_v37 : IVec S_ 1 := (fun x v => Host.reduce IntOp.andi x v reducesTo_S6144x2176_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_v48 main_v49 main_v50

def fn_part1 {F : FTy → Type} [FloatOps F] (main_arg5 : FVec F S3 .f32) (main_arg6 : FVec F S128x2048 .f32) (main_arg7 : FVec F S128 .f32) (main_arg8 : FVec F S6144x2176 .f32) (main_arg9 : FVec F S6144x2048 .f32) (main_arg10 : FVec F S6144 .f32) (main_arg11 : FVec F S6144 .f32) (main_arg12 : FVec F S45x2048 .f32) (main_arg13 : FVec F S45 .f32) (main_v13 : IVec S_ 1) (main_v16 : IVec S3x2048 1) : IVec S_ 1 :=
  let main_c_5 : IVec S_ 1 := constantI S_ 1 1#1
  let main_v17 : IVec S_ 1 := (fun x v => Host.reduce IntOp.andi x v reducesTo_S3x2048_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S128x2048 .f32 := Host.absf main_arg6
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x2048 .f32) (main_arg2 : FVec F S1x200x128 .f32) (main_arg3 : FVec F S45x2048 .f32) (main_arg4 : FVec F S3x2048 .f32) (main_arg5 : FVec F S3 .f32) (main_arg6 : FVec F S128x2048 .f32) (main_arg7 : FVec F S128 .f32) (main_arg8 : FVec F S6144x2176 .f32) (main_arg9 : FVec F S6144x2048 .f32) (main_arg10 : FVec F S6144 .f32) (main_arg11 : FVec F S6144 .f32) (main_arg12 : FVec F S45x2048 .f32) (main_arg13 : FVec F S45 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x200x128 .f32 := Host.absf main_arg2
  let main_cst_0 : FVec F S_ .f32 := constant S_ .f32 0x7F800000#32
  let main_v5 : FVec F S1x200x128 .f32 := broadcastInDim S1x200x128 ![] bcast_S_S1x200x128 main_cst_0
  let main_v6 : IVec S1x200x128 1 := cmpf .olt main_v4 main_v5
  let main_c_1 : IVec S_ 1 := constantI S_ 1 1#1
  let main_v7 : IVec S_ 1 := (fun x v => Host.reduce IntOp.andi x v reducesTo_S1x200x128_S_d0_1_2 h_S_) main_v6 main_c_1
  let main_v8 : IVec S_ 1 := andi main_v3 main_v7
  let main_v9 : FVec F S45x2048 .f32 := Host.absf main_arg3
  let main_cst_2 : FVec F S_ .f32 := constant S_ .f32 0x7F800000#32
  let main_v10 : FVec F S45x2048 .f32 := broadcastInDim S45x2048 ![] bcast_S_S45x2048 main_cst_2
  let main_v11 : IVec S45x2048 1 := cmpf .olt main_v9 main_v10
  let main_c_3 : IVec S_ 1 := constantI S_ 1 1#1
  let main_v12 : IVec S_ 1 := (fun x v => Host.reduce IntOp.andi x v reducesTo_S45x2048_S_d0_1 h_S_) main_v11 main_c_3
  let main_v13 : IVec S_ 1 := andi main_v8 main_v12
  let main_v14 : FVec F S3x2048 .f32 := Host.absf main_arg4
  let main_cst_4 : FVec F S_ .f32 := constant S_ .f32 0x7F800000#32
  let main_v15 : FVec F S3x2048 .f32 := broadcastInDim S3x2048 ![] bcast_S_S3x2048 main_cst_4
  let main_v16 : IVec S3x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x2048 : Shape := ⟨3, ![1, 1, 2048]⟩
abbrev S1x200x128 : Shape := ⟨3, ![1, 200, 128]⟩
abbrev S45x2048 : Shape := ⟨2, ![45, 2048]⟩
abbrev S3x2048 : Shape := ⟨2, ![3, 2048]⟩
abbrev S3 : Shape := ⟨1, ![3]⟩
abbrev S128x2048 : Shape := ⟨2, ![128, 2048]⟩
abbrev S128 : Shape := ⟨1, ![128]⟩
abbrev S6144x2176 : Shape := ⟨2, ![6144, 2176]⟩
abbrev S6144x2048 : Shape := ⟨2, ![6144, 2048]⟩
abbrev S6144 : Shape := ⟨1, ![6144]⟩
abbrev S45 : Shape := ⟨1, ![45]⟩
abbrev S1x2048 : Shape := ⟨2, ![1, 2048]⟩
abbrev S2048x3 : Shape := ⟨2, ![2048, 3]⟩
abbrev S1x3 : Shape := ⟨2, ![1, 3]⟩
abbrev S_ : Shape := ⟨0, ![]⟩
abbrev S1x1 : Shape := ⟨2, ![1, 1]⟩
abbrev S2048x128 : Shape := ⟨2, ![2048, 128]⟩
abbrev S1x128 : Shape := ⟨2, ![1, 128]⟩
abbrev S1x1x128 : Shape := ⟨3, ![1, 1, 128]⟩
abbrev S1x199x128 : Shape := ⟨3, ![1, 199, 128]⟩
abbrev S1x3x1x1 : Shape := ⟨4, ![1, 3, 1, 1]⟩
abbrev S1x1x1x1 : Shape := ⟨4, ![1, 1, 1, 1]⟩
abbrev S1x1x1 : Shape := ⟨3, ![1, 1, 1]⟩
abbrev S1x2176 : Shape := ⟨2, ![1, 2176]⟩
abbrev S1x6144 : Shape := ⟨2, ![1, 6144]⟩
abbrev S2048x45 : Shape := ⟨2, ![2048, 45]⟩
abbrev S1x45 : Shape := ⟨2, ![1, 45]⟩
abbrev S128x2176 : Shape := ⟨2, ![128, 2176]⟩

abbrev nBuf : Space → Nat
  | .hbm => 80
  | .vmem => 30
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x200x128, .f32⟩
  | .hbm, ⟨3, _⟩ => ⟨S45x2048, .f32⟩
  | .hbm, ⟨4, _⟩ => ⟨S3x2048, .f32⟩
  | .hbm, ⟨5, _⟩ => ⟨S3, .f32⟩
  | .hbm, ⟨6, _⟩ => ⟨S128x2048, .f32⟩
  | .hbm, ⟨7, _⟩ => ⟨S128, .f32⟩
  | .hbm, ⟨8, _⟩ => ⟨S6144x2176, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S45x2048, .f32⟩
  | .hbm, ⟨13, _⟩ => ⟨S45, .f32⟩
  | .hbm, ⟨14, _⟩ => ⟨S1x2048, .f32⟩
  | .hbm, ⟨15, _⟩ => ⟨S2048x3, .f32⟩
  | .hbm, ⟨16, _⟩ => ⟨S1x3, .f32⟩
  | .hbm, ⟨17, _⟩ => ⟨S1x3, .f32⟩
  | .hbm, ⟨18, _⟩ => ⟨S1x3, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S1x3, .f32⟩
  | .hbm, ⟨26, _⟩ => ⟨S1x3, .f32⟩
  | .hbm, ⟨27, _⟩ => ⟨S1x3, .f32⟩
  | .hbm, ⟨28, _⟩ => ⟨S_, .f32⟩
  | .hbm, ⟨29, _⟩ => ⟨S1, .f32⟩
  | .hbm, ⟨30, _⟩ => ⟨S1x1, .f32⟩
  | .hbm, ⟨31, _⟩ => ⟨S1x3, .f32⟩
  | .hbm, ⟨32, _⟩ => ⟨S1x3, .f32⟩
  | .hbm, ⟨33, _⟩ => ⟨S2048x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x1x128, .f32⟩
  | .hbm, ⟨39, _⟩ => ⟨S_, .f32⟩
  | .hbm, ⟨40, _⟩ => ⟨S1x1x128, .f32⟩
  | .hbm, ⟨41, _⟩ => ⟨S1x199x128, .f32⟩
  | .hbm, ⟨42, _⟩ => ⟨S1x200x128, .f32⟩
  | .hbm, ⟨43, _⟩ => ⟨S1x199x128, .f32⟩
  | .hbm, ⟨44, _⟩ => ⟨S1x200x128, .f32⟩
  | .hbm, ⟨45, _⟩ => ⟨S1x3x1x1, .f32⟩
  | .hbm, ⟨46, _⟩ => ⟨S1x1x1x1, .f32⟩
  | .hbm, ⟨47, _⟩ => ⟨S1x1x1, .f32⟩
  | .hbm, ⟨48, _⟩ => ⟨S1x200x128, .f32⟩
  | .hbm, ⟨49, _⟩ => ⟨S1x200x128, .f32⟩
  | .hbm, ⟨50, _⟩ => ⟨S1x1x1x1, .f32⟩
  | .hbm, ⟨51, _⟩ => ⟨S1x1x1, .f32⟩
  | .hbm, ⟨52, _⟩ => ⟨S1x200x128, .f32⟩
  | .hbm, ⟨53, _⟩ => ⟨S1x200x128, .f32⟩
  | .hbm, ⟨54, _⟩ => ⟨S1x200x128, .f32⟩
  | .hbm, ⟨55, _⟩ => ⟨S1x1x1x1, .f32⟩
  | .hbm, ⟨56, _⟩ => ⟨S1x1x1, .f32⟩
  | .hbm, ⟨57, _⟩ => ⟨S1x200x128, .f32⟩
  | .hbm, ⟨58, _⟩ => ⟨S1x200x128, .f32⟩
  | .hbm, ⟨59, _⟩ => ⟨S1x200x128, .f32⟩
  | .hbm, ⟨60, _⟩ => ⟨S1x1x128, .f32⟩
  | .hbm, ⟨61, _⟩ => ⟨S1x128, .f32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S1, .i32⟩
  | .hbm, ⟨69, _⟩ => ⟨S1x1, .i32⟩
  | .hbm, ⟨70, _⟩ => ⟨S1x2048, .f32⟩
  | .hbm, ⟨71, _⟩ => ⟨S1x2176, .f32⟩
  | .hbm, ⟨72, _⟩ => ⟨S1x6144, .f32⟩
  | .hbm, ⟨73, _⟩ => ⟨S1x6144, .f32⟩
  | .hbm, ⟨74, _⟩ => ⟨S1x2048, .f32⟩
  | .hbm, ⟨75, _⟩ => ⟨S2048x45, .f32⟩
  | .hbm, ⟨76, _⟩ => ⟨S1x45, .f32⟩
  | .hbm, ⟨77, _⟩ => ⟨S1x45, .f32⟩
  | .hbm, ⟨78, _⟩ => ⟨S1x45, .f32⟩
  | .hbm, ⟨79, _⟩ => ⟨S1x1x2048, .f32⟩
  | .local _ .vmem, ⟨0, _⟩ => ⟨S1x2176, .f32⟩
  | .local _ .vmem, ⟨1, _⟩ => ⟨S1x2048, .f32⟩
  | .local _ .vmem, ⟨2, _⟩ => ⟨S1x128, .f32⟩
  | .local _ .vmem, ⟨3, _⟩ => ⟨S1x128, .f32⟩
  | .local _ .vmem, ⟨4, _⟩ => ⟨S128x2176, .f32⟩
  | .local _ .vmem, ⟨5, _⟩ => ⟨S128x2176, .f32⟩
  | .local _ .vmem, ⟨6, _⟩ => ⟨S128x2176, .f32⟩
  | .local _ .vmem, ⟨7, _⟩ => ⟨S128x2176, .f32⟩
  | .local _ .vmem, ⟨8, _⟩ => ⟨S128x2176, .f32⟩
  | .local _ .vmem, ⟨9, _⟩ => ⟨S128x2176, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_call0_cst_0 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_1 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_cst_2 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_v0_2 : Ref sig .tc := ⟨.hbm, 59, rfl⟩
abbrev main_call0_v42 : Ref sig .tc := ⟨.hbm, 60, rfl⟩
abbrev main_call0_v43 : Ref sig .tc := ⟨.hbm, 61, rfl⟩
abbrev main_call0_c : Ref sig .tc := ⟨.hbm, 62, rfl⟩
abbrev main_call0_v44 : Ref sig .tc := ⟨.hbm, 63, rfl⟩
abbrev main_call0_v45 : Ref sig .tc := ⟨.hbm, 64, rfl⟩
abbrev main_call0_c_3 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_v56 : Ref sig .tc := ⟨.hbm, 76, rfl⟩
abbrev main_call0_v57 : Ref sig .tc := ⟨.hbm, 77, rfl⟩
abbrev main_v0_0 : Ref sig .tc := ⟨.hbm, 78, rfl⟩
abbrev main_v0_1 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S1x1x2048_S1x2048 : S1x1x2048.ShapeCasts S1x2048
  transposes_S3x2048_S2048x3_1_0 : S3x2048.Transposes [1, 0] S2048x3
  bcast_S3_S1x3_1 : S3.BroadcastsInDim S1x3 (![1] : Fin 1 → Fin S1x3.rank)
  reducesTo_S1x3_S1_d1 : S1x3.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  transposes_S128x2048_S2048x128_1_0 : S128x2048.Transposes [1, 0] S2048x128
  bcast_S128_S1x128_1 : S128.BroadcastsInDim S1x128 (![1] : Fin 1 → Fin S1x128.rank)
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  slices_S1x200x128_S1x199x128_0_1_0 : S1x200x128.Slices ![0, 1, 0] S1x199x128
  concatenates_S1x199x128_S1x1x128_S1x200x128_d1 : Shape.Concatenates [S1x199x128, S1x1x128] S1x200x128 1
  slices_S1x200x128_S1x199x128_0_0_0 : S1x200x128.Slices ![0, 0, 0] S1x199x128
  concatenates_S1x1x128_S1x199x128_S1x200x128_d1 : Shape.Concatenates [S1x1x128, S1x199x128] S1x200x128 1
  shapeCasts_S1x3_S1x3x1x1 : S1x3.ShapeCasts S1x3x1x1
  slices_S1x3x1x1_S1x1x1x1_0_2_0_0 : S1x3x1x1.Slices ![0, 2, 0, 0] S1x1x1x1
  shapeCasts_S1x1x1x1_S1x1x1 : S1x1x1x1.ShapeCasts S1x1x1
  bcast_S1x1x1_S1x200x128_0_1_2 : S1x1x1.BroadcastsInDim S1x200x128 (![0, 1, 2] : Fin 3 → Fin S1x200x128.rank)
  slices_S1x3x1x1_S1x1x1x1_0_0_0_0 : S1x3x1x1.Slices ![0, 0, 0, 0] S1x1x1x1
  slices_S1x3x1x1_S1x1x1x1_0_1_0_0 : S1x3x1x1.Slices ![0, 1, 0, 0] S1x1x1x1
  slices_S1x200x128_S1x1x128_0_0_0 : S1x200x128.Slices ![0, 0, 0] S1x1x128
  shapeCasts_S1x1x128_S1x128 : S1x1x128.ShapeCasts S1x128
  concatenates_S1x2048_S1x128_S1x2176_d1 : Shape.Concatenates [S1x2048, S1x128] S1x2176 1
  shapeCasts_S6144_S1x6144 : S6144.ShapeCasts S1x6144
  transposes_S45x2048_S2048x45_1_0 : S45x2048.Transposes [1, 0] S2048x45
  bcast_S45_S1x45_1 : S45.BroadcastsInDim S1x45 (![1] : Fin 1 → Fin S1x45.rank)
  bcast_S1x2048_S1x1x2048_1_2 : S1x2048.BroadcastsInDim S1x1x2048 (![1, 2] : Fin 2 → Fin S1x1x2048.rank)
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x2176_S128x2176_0_0 : ∀ a, (![0, 0] : Fin 2 → Nat) a + S128x2176.size a ≤ S128x2176.size a
  h_S128x2176 : 0 < S128x2176.numel
  inb_S128x2048_S128x2048_0_0 : ∀ a, (![0, 0] : Fin 2 → Nat) a + S128x2048.size a ≤ S128x2048.size a
  h_S128x2048 : 0 < S128x2048.numel
  dot_S1x2048_S2048x3_S1x3_1_0_0_1_n_n_wf : DotDims.WF S1x2048 S2048x3 S1x3 [1] [0] [0] [1] [] []
  dot_S1x2048_S2048x128_S1x128_1_0_0_1_n_n_wf : DotDims.WF S1x2048 S2048x128 S1x128 [1] [0] [0] [1] [] []
  gather_S45x2048_S1x1_S1x2048_1_0_n_n_0_1_12048_wf : GatherDims.WF S45x2048 S1x1 S1x2048 [1] [0] [] [0] [] 1 ![1, 2048]
  dot_S1x2048_S2048x45_S1x45_1_0_0_1_n_n_wf : DotDims.WF S1x2048 S2048x45 S1x45 [1] [0] [0] [1] [] []
  dot_S1x2176_S128x2176_S1x128_1_1_0_0_n_n_wf : DotDims.WF S1x2176 S128x2176 S1x128 [1] [1] [0] [0] [] []
  dot_S1x2048_S128x2048_S1x128_1_1_0_0_n_n_wf : DotDims.WF S1x2048 S128x2048 S1x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2176.size a ≤ S1x2176.size a
  hwx0_0 : ∀ i : grid0.Coords, EltTy.bits .f32 = 32 ∨ (Rect.block (s := S1x2176) S1x2176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x2048.size a
  hwx0_2 : ∀ i : grid0.Coords, EltTy.bits .f32 = 32 ∨ (Rect.block (s := S1x2048) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2176.size a ≤ S6144x2176.size a
  hwx0_3 : ∀ i : grid0.Coords, EltTy.bits .f32 = 32 ∨ (Rect.block (s := S6144x2176) S128x2176.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2176.size a ≤ S6144x2176.size a
  hwx0_4 : ∀ i : grid0.Coords, EltTy.bits .f32 = 32 ∨ (Rect.block (s := S6144x2176) S128x2176.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2176.size a ≤ S6144x2176.size a
  hwx0_5 : ∀ i : grid0.Coords, EltTy.bits .f32 = 32 ∨ (Rect.block (s := S6144x2176) S128x2176.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S6144x2048.size a
  hwx0_6 : ∀ i : grid0.Coords, EltTy.bits .f32 = 32 ∨ (Rect.block (s := S6144x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S6144x2048.size a
  hwx0_7 : ∀ i : grid0.Coords, EltTy.bits .f32 = 32 ∨ (Rect.block (s := S6144x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S6144x2048.size a
  hwx0_8 : ∀ i : grid0.Coords, EltTy.bits .f32 = 32 ∨ (Rect.block (s := S6144x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x6144.size a
  hwx0_9 : ∀ i : grid0.Coords, EltTy.bits .f32 = 32 ∨ (Rect.block (s := S1x6144) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x6144.size a
  hwx0_10 : ∀ i : grid0.Coords, EltTy.bits .f32 = 32 ∨ (Rect.block (s := S1x6144) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x6144.size a
  hwx0_11 : ∀ i : grid0.Coords, EltTy.bits .f32 = 32 ∨ (Rect.block (s := S1x6144) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x6144.size a
  hwx0_12 : ∀ i : grid0.Coords, EltTy.bits .f32 = 32 ∨ (Rect.block (s := S1x6144) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x6144.size a
  hwx0_13 : ∀ i : grid0.Coords, EltTy.bits .f32 = 32 ∨ (Rect.block (s := S1x6144) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x6144.size a
  hwx0_14 : ∀ i : grid0.Coords, EltTy.bits .f32 = 32 ∨ (Rect.block (s := S1x6144) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x2048.size a
  hwx0_15 : ∀ i : grid0.Coords, EltTy.bits .f32 = 32 ∨ (Rect.block (s := S1x2048) S1x128.size (cc0_transform_15 i) (hinb0_15 i)).WholeWords (EltTy.packing .f32)

variable [Facts₀]

def dot_S1x2048_S2048x3_S1x3_1_0_0_1_n_n : DotDims S1x2048 S2048x3 S1x3 where
  lhsContracting := [1]
  rhsContracting := [0]
  lhsNonContracting := [0]
  rhsNonContracting := [1]
  lhsBatch := []
  rhsBatch := []
  wf := dot_S1x2048_S2048x3_S1x3_1_0_0_1_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def gather_S45x2048_S1x1_S1x2048_1_0_n_n_0_1_12048 : GatherDims S45x2048 S1x1 S1x2048 where
  offsetDims := [1]
  collapsedSliceDims := [0]
  operandBatchingDims := []
  startIndicesBatchingDims := []
  startIndexMap := [0]
  indexVectorDim := 1
  sliceSizes := ![1, 2048]
  wf := gather_S45x2048_S1x1_S1x2048_1_0_n_n_0_1_12048_wf
def dot_S1x2048_S2048x45_S1x45_1_0_0_1_n_n : DotDims S1x2048 S2048x45 S1x45 where
  lhsContracting := [1]
  rhsContracting := [0]
  lhsNonContracting := [0]
  rhsNonContracting := [1]
  lhsBatch := []
  rhsBatch := []
  wf := dot_S1x2048_S2048x45_S1x45_1_0_0_1_n_n_wf
def dot_S1x2176_S128x2176_S1x128_1_1_0_0_n_n : DotDims S1x2176 S128x2176 S1x128 where
  lhsContracting := [1]
  rhsContracting := [1]
  lhsNonContracting := [0]
  rhsNonContracting := [0]
  lhsBatch := []
  rhsBatch := []
  wf := dot_S1x2176_S128x2176_S1x128_1_1_0_0_n_n_wf
def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf

abbrev win0_0 : Pipeline.Window sig grid0 :=
  Pipeline.Window.ofSpec (Memref.whole main_call0_v51) S1x2176.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x2176.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x2176.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x2176.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v52) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_call0_v52) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_call0_v52) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_call0_v53) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_call0_v53) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_call0_v53) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_call0_v54) S1x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1 : Shape := ⟨1, ![1]⟩
abbrev S1x1x2048 : Shape := ⟨3, ![1, 1, 2048]⟩
abbrev S1x200x128 : Shape := ⟨3, ![1, 200, 128]⟩
abbrev S45x2048 : Shape := ⟨2, ![45, 2048]⟩
abbrev S3x2048 : Shape := ⟨2, ![3, 2048]⟩
abbrev S3 : Shape := ⟨1, ![3]⟩
abbrev S128x2048 : Shape := ⟨2, ![128, 2048]⟩
abbrev S128 : Shape := ⟨1, ![128]⟩
abbrev S6144x2176 : Shape := ⟨2, ![6144, 2176]⟩
abbrev S6144x2048 : Shape := ⟨2, ![6144, 2048]⟩
abbrev S6144 : Shape := ⟨1, ![6144]⟩
abbrev S45 : Shape := ⟨1, ![45]⟩
abbrev S1x2048 : Shape := ⟨2, ![1, 2048]⟩
abbrev S2048x3 : Shape := ⟨2, ![2048, 3]⟩
abbrev S1x3 : Shape := ⟨2, ![1, 3]⟩
abbrev S_ : Shape := ⟨0, ![]⟩
abbrev S1x1 : Shape := ⟨2, ![1, 1]⟩
abbrev S2048x128 : Shape := ⟨2, ![2048, 128]⟩
abbrev S1x128 : Shape := ⟨2, ![1, 128]⟩
abbrev S1x1x128 : Shape := ⟨3, ![1, 1, 128]⟩
abbrev S1x199x128 : Shape := ⟨3, ![1, 199, 128]⟩
abbrev S1x3x1x1 : Shape := ⟨4, ![1, 3, 1, 1]⟩
abbrev S1x1x1x1 : Shape := ⟨4, ![1, 1, 1, 1]⟩
abbrev S1x1x1 : Shape := ⟨3, ![1, 1, 1]⟩
abbrev S1x2176 : Shape := ⟨2, ![1, 2176]⟩
abbrev S2176x6144 : Shape := ⟨2, ![2176, 6144]⟩
abbrev S1x6144 : Shape := ⟨2, ![1, 6144]⟩
abbrev S2048x6144 : Shape := ⟨2, ![2048, 6144]⟩
abbrev S2048x45 : Shape := ⟨2, ![2048, 45]⟩
abbrev S1x45 : Shape := ⟨2, ![1, 45]⟩

abbrev nBuf : Space → Nat
  | .hbm => 118
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x200x128, .f32⟩
  | .hbm, ⟨3, _⟩ => ⟨S45x2048, .f32⟩
  | .hbm, ⟨4, _⟩ => ⟨S3x2048, .f32⟩
  | .hbm, ⟨5, _⟩ => ⟨S3, .f32⟩
  | .hbm, ⟨6, _⟩ => ⟨S128x2048, .f32⟩
  | .hbm, ⟨7, _⟩ => ⟨S128, .f32⟩
  | .hbm, ⟨8, _⟩ => ⟨S6144x2176, .f32⟩
  | .hbm, ⟨9, _⟩ => ⟨S6144x2048, .f32⟩
  | .hbm, ⟨10, _⟩ => ⟨S6144, .f32⟩
  | .hbm, ⟨11, _⟩ => ⟨S6144, .f32⟩
  | .hbm, ⟨12, _⟩ => ⟨S45x2048, .f32⟩
  | .hbm, ⟨13, _⟩ => ⟨S45, .f32⟩
  | .hbm, ⟨14, _⟩ => ⟨S1x2048, .f32⟩
  | .hbm, ⟨15, _⟩ => ⟨S2048x3, .f32⟩
  | .hbm, ⟨16, _⟩ => ⟨S1x3, .f32⟩
  | .hbm, ⟨17, _⟩ => ⟨S1x3, .f32⟩
  | .hbm, ⟨18, _⟩ => ⟨S1x3, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S1x3, .f32⟩
  | .hbm, ⟨26, _⟩ => ⟨S1x3, .f32⟩
  | .hbm, ⟨27, _⟩ => ⟨S1x3, .f32⟩
  | .hbm, ⟨28, _⟩ => ⟨S_, .f32⟩
  | .hbm, ⟨29, _⟩ => ⟨S1, .f32⟩
  | .hbm, ⟨30, _⟩ => ⟨S1x1, .f32⟩
  | .hbm, ⟨31, _⟩ => ⟨S1x3, .f32⟩
  | .hbm, ⟨32, _⟩ => ⟨S1x3, .f32⟩
  | .hbm, ⟨33, _⟩ => ⟨S2048x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x1x128, .f32⟩
  | .hbm, ⟨39, _⟩ => ⟨S_, .f32⟩
  | .hbm, ⟨40, _⟩ => ⟨S1x1x128, .f32⟩
  | .hbm, ⟨41, _⟩ => ⟨S1x199x128, .f32⟩
  | .hbm, ⟨42, _⟩ => ⟨S1x200x128, .f32⟩
  | .hbm, ⟨43, _⟩ => ⟨S1x199x128, .f32⟩
  | .hbm, ⟨44, _⟩ => ⟨S1x200x128, .f32⟩
  | .hbm, ⟨45, _⟩ => ⟨S1x3x1x1, .f32⟩
  | .hbm, ⟨46, _⟩ => ⟨S1x1x1x1, .f32⟩
  | .hbm, ⟨47, _⟩ => ⟨S1x1x1, .f32⟩
  | .hbm, ⟨48, _⟩ => ⟨S1x200x128, .f32⟩
  | .hbm, ⟨49, _⟩ => ⟨S1x200x128, .f32⟩
  | .hbm, ⟨50, _⟩ => ⟨S1x1x1x1, .f32⟩
  | .hbm, ⟨51, _⟩ => ⟨S1x1x1, .f32⟩
  | .hbm, ⟨52, _⟩ => ⟨S1x200x128, .f32⟩
  | .hbm, ⟨53, _⟩ => ⟨S1x200x128, .f32⟩
  | .hbm, ⟨54, _⟩ => ⟨S1x200x128, .f32⟩
  | .hbm, ⟨55, _⟩ => ⟨S1x1x1x1, .f32⟩
  | .hbm, ⟨56, _⟩ => ⟨S1x1x1, .f32⟩
  | .hbm, ⟨57, _⟩ => ⟨S1x200x128, .f32⟩
  | .hbm, ⟨58, _⟩ => ⟨S1x200x128, .f32⟩
  | .hbm, ⟨59, _⟩ => ⟨S1x200x128, .f32⟩
  | .hbm, ⟨60, _⟩ => ⟨S1x1x128, .f32⟩
  | .hbm, ⟨61, _⟩ => ⟨S1x128, .f32⟩
  | .hbm, ⟨62, _⟩ => ⟨S_, .i32⟩
  | .hbm, ⟨63, _⟩ => ⟨S1, .i32⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S1, .i32⟩
  | .hbm, ⟨69, _⟩ => ⟨S1x1, .i32⟩
  | .hbm, ⟨70, _⟩ => ⟨S1x2048, .f32⟩
  | .hbm, ⟨71, _⟩ => ⟨S1x2176, .f32⟩
  | .hbm, ⟨72, _⟩ => ⟨S2176x6144, .f32⟩
  | .hbm, ⟨73, _⟩ => ⟨S1x6144, .f32⟩
  | .hbm, ⟨74, _⟩ => ⟨S1x6144, .f32⟩
  | .hbm, ⟨75, _⟩ => ⟨S1x6144, .f32⟩
  | .hbm, ⟨76, _⟩ => ⟨S2048x6144, .f32⟩
  | .hbm, ⟨77, _⟩ => ⟨S1x6144, .f32⟩
  | .hbm, ⟨78, _⟩ => ⟨S1x6144, .f32⟩
  | .hbm, ⟨79, _⟩ => ⟨S1x6144, .f32⟩
  | .hbm, ⟨80, _⟩ => ⟨S1x2048, .f32⟩
  | .hbm, ⟨81, _⟩ => ⟨S1x2048, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S1x2048, .f32⟩
  | .hbm, ⟨88, _⟩ => ⟨S1x2048, .f32⟩
  | .hbm, ⟨89, _⟩ => ⟨S_, .f32⟩
  | .hbm, ⟨90, _⟩ => ⟨S1x2048, .f32⟩
  | .hbm, ⟨91, _⟩ => ⟨S1x2048, .f32⟩
  | .hbm, ⟨92, _⟩ => ⟨S_, .f32⟩
  | .hbm, ⟨93, _⟩ => ⟨S1x2048, .f32⟩
  | .hbm, ⟨94, _⟩ => ⟨S1x2048, .f32⟩
  | .hbm, ⟨95, _⟩ => ⟨S1x2048, .f32⟩
  | .hbm, ⟨96, _⟩ => ⟨S1x2048, .f32⟩
  | .hbm, ⟨97, _⟩ => ⟨S1x2048, .f32⟩
  | .hbm, ⟨98, _⟩ => ⟨S_, .f32⟩
  | .hbm, ⟨99, _⟩ => ⟨S1x2048, .f32⟩
  | .hbm, ⟨100, _⟩ => ⟨S1x2048, .f32⟩
  | .hbm, ⟨101, _⟩ => ⟨S_, .f32⟩
  | .hbm, ⟨102, _⟩ => ⟨S1x2048, .f32⟩
  | .hbm, ⟨103, _⟩ => ⟨S1x2048, .f32⟩
  | .hbm, ⟨104, _⟩ => ⟨S1x2048, .f32⟩
  | .hbm, ⟨105, _⟩ => ⟨S1x2048, .f32⟩
  | .hbm, ⟨106, _⟩ => ⟨S1x2048, .f32⟩
  | .hbm, ⟨107, _⟩ => ⟨S_, .f32⟩
  | .hbm, ⟨108, _⟩ => ⟨S1x2048, .f32⟩
  | .hbm, ⟨109, _⟩ => ⟨S1x2048, .f32⟩
  | .hbm, ⟨110, _⟩ => ⟨S1x2048, .f32⟩
  | .hbm, ⟨111, _⟩ => ⟨S1x2048, .f32⟩
  | .hbm, ⟨112, _⟩ => ⟨S1x2048, .f32⟩
  | .hbm, ⟨113, _⟩ => ⟨S2048x45, .f32⟩
  | .hbm, ⟨114, _⟩ => ⟨S1x45, .f32⟩
  | .hbm, ⟨115, _⟩ => ⟨S1x45, .f32⟩
  | .hbm, ⟨116, _⟩ => ⟨S1x45, .f32⟩
  | .hbm, ⟨117, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_v44 : Ref sig .tc := ⟨.hbm, 63, rfl⟩
abbrev main_v45 : Ref sig .tc := ⟨.hbm, 64, rfl⟩
abbrev main_c_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_4 : Ref sig .tc := ⟨.hbm, 89, rfl⟩
abbrev main_v69 : Ref sig .tc := ⟨.hbm, 90, rfl⟩
abbrev main_v70 : Ref sig .tc := ⟨.hbm, 91, rfl⟩
abbrev main_cst_5 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_6 : Ref sig .tc := ⟨.hbm, 98, rfl⟩
abbrev main_v76 : Ref sig .tc := ⟨.hbm, 99, rfl⟩
abbrev main_v77 : Ref sig .tc := ⟨.hbm, 100, rfl⟩
abbrev main_cst_7 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_8 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]

class Facts₀ : Prop where
  shapeCasts_S1x1x2048_S1x2048 : S1x1x2048.ShapeCasts S1x2048
  transposes_S3x2048_S2048x3_1_0 : S3x2048.Transposes [1, 0] S2048x3
  bcast_S3_S1x3_1 : S3.BroadcastsInDim S1x3 (![1] : Fin 1 → Fin S1x3.rank)
  reducesTo_S1x3_S1_d1 : S1x3.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  transposes_S128x2048_S2048x128_1_0 : S128x2048.Transposes [1, 0] S2048x128
  bcast_S128_S1x128_1 : S128.BroadcastsInDim S1x128 (![1] : Fin 1 → Fin S1x128.rank)
  bcast_S1x128_S1x1x128_0_2 : S1x128.BroadcastsInDim S1x1x128 (![0, 2] : Fin 2 → Fin S1x1x128.rank)
  bcast_S_S1x1x128 : S_.BroadcastsInDim S1x1x128 (![] : Fin 0 → Fin S1x1x128.rank)
  slices_S1x200x128_S1x199x128_0_1_0 : S1x200x128.Slices ![0, 1, 0] S1x199x128
  concatenates_S1x199x128_S1x1x128_S1x200x128_d1 : Shape.Concatenates [S1x199x128, S1x1x128] S1x200x128 1
  slices_S1x200x128_S1x199x128_0_0_0 : S1x200x128.Slices ![0, 0, 0] S1x199x128
  concatenates_S1x1x128_S1x199x128_S1x200x128_d1 : Shape.Concatenates [S1x1x128, S1x199x128] S1x200x128 1
  shapeCasts_S1x3_S1x3x1x1 : S1x3.ShapeCasts S1x3x1x1
  slices_S1x3x1x1_S1x1x1x1_0_2_0_0 : S1x3x1x1.Slices ![0, 2, 0, 0] S1x1x1x1
  shapeCasts_S1x1x1x1_S1x1x1 : S1x1x1x1.ShapeCasts S1x1x1
  bcast_S1x1x1_S1x200x128_0_1_2 : S1x1x1.BroadcastsInDim S1x200x128 (![0, 1, 2] : Fin 3 → Fin S1x200x128.rank)
  slices_S1x3x1x1_S1x1x1x1_0_0_0_0 : S1x3x1x1.Slices ![0, 0, 0, 0] S1x1x1x1
  slices_S1x3x1x1_S1x1x1x1_0_1_0_0 : S1x3x1x1.Slices ![0, 1, 0, 0] S1x1x1x1
  slices_S1x200x128_S1x1x128_0_0_0 : S1x200x128.Slices ![0, 0, 0] S1x1x128
  shapeCasts_S1x1x128_S1x128 : S1x1x128.ShapeCasts S1x128
  concatenates_S1x2048_S1x128_S1x2176_d1 : Shape.Concatenates [S1x2048, S1x128] S1x2176 1
  transposes_S6144x2176_S2176x6144_1_0 : S6144x2176.Transposes [1, 0] S2176x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  transposes_S45x2048_S2048x45_1_0 : S45x2048.Transposes [1, 0] S2048x45
  bcast_S45_S1x45_1 : S45.BroadcastsInDim S1x45 (![1] : Fin 1 → Fin S1x45.rank)
  bcast_S1x2048_S1x1x2048_1_2 : S1x2048.BroadcastsInDim S1x1x2048 (![1, 2] : Fin 2 → Fin S1x1x2048.rank)
  dot_S1x2048_S2048x3_S1x3_1_0_0_1_n_n_wf : DotDims.WF S1x2048 S2048x3 S1x3 [1] [0] [0] [1] [] []
  dot_S1x2048_S2048x128_S1x128_1_0_0_1_n_n_wf : DotDims.WF S1x2048 S2048x128 S1x128 [1] [0] [0] [1] [] []
  gather_S45x2048_S1x1_S1x2048_1_0_n_n_0_1_12048_wf : GatherDims.WF S45x2048 S1x1 S1x2048 [1] [0] [] [0] [] 1 ![1, 2048]
  dot_S1x2176_S2176x6144_S1x6144_1_0_0_1_n_n_wf : DotDims.WF S1x2176 S2176x6144 S1x6144 [1] [0] [0] [1] [] []
  dot_S1x2048_S2048x6144_S1x6144_1_0_0_1_n_n_wf : DotDims.WF S1x2048 S2048x6144 S1x6144 [1] [0] [0] [1] [] []
  dot_S1x2048_S2048x45_S1x45_1_0_0_1_n_n_wf : DotDims.WF S1x2048 S2048x45 S1x45 [1] [0] [0] [1] [] []

variable [Facts₀]

def dot_S1x2048_S2048x3_S1x3_1_0_0_1_n_n : DotDims S1x2048 S2048x3 S1x3 where
  lhsContracting := [1]
  rhsContracting := [0]
  lhsNonContracting := [0]
  rhsNonContracting := [1]
  lhsBatch := []
  rhsBatch := []
  wf := dot_S1x2048_S2048x3_S1x3_1_0_0_1_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def gather_S45x2048_S1x1_S1x2048_1_0_n_n_0_1_12048 : GatherDims S45x2048 S1x1 S1x2048 where
  offsetDims := [1]
  collapsedSliceDims := [0]
  operandBatchingDims := []
  startIndicesBatchingDims := []
  startIndexMap := [0]
  indexVectorDim := 1
  sliceSizes := ![1, 2048]
  wf := gather_S45x2048_S1x1_S1x2048_1_0_n_n_0_1_12048_wf
def dot_S1x2176_S2176x6144_S1x6144_1_0_0_1_n_n : DotDims S1x2176 S2176x6144 S1x6144 where
  lhsContracting := [1]
  rhsContracting := [0]
  lhsNonContracting := [0]
  rhsNonContracting := [1]
  lhsBatch := []
  rhsBatch := []
  wf := dot_S1x2176_S2176x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x45_S1x45_1_0_0_1_n_n : DotDims S1x2048 S2048x45 S1x45 where
  lhsContracting := [1]
  rhsContracting := [0]
  lhsNonContracting := [0]
  rhsNonContracting := [1]
  lhsBatch := []
  rhsBatch := []
  wf := dot_S1x2048_S2048x45_S1x45_1_0_0_1_n_n_wf

class Facts : Prop extends Facts₀ where

variable [Facts]
-- ==== Proof.KernelBody.lean ====
/-
  The body of the gated-recurrent-cell kernel at one grid point, and the data of its pipeline.

  The kernel visits sixteen blocks of 128 hidden units. At each block it reads the whole input row, the whole previous
  state, and that block's rows of the two stacked weight matrices and bias rows (three row blocks of each, one per
  gate), and stores the block's 128 new state entries. Several windows read one array (the previous state through two
  windows, each weight and bias array through three), so each such window holds only a part of the array's share:
  the previous state's two windows a half each, the three windows of a weight or bias array a half and two quarters.
  What a staging buffer holds before the body is its window's block of the array as the kernel's call finds it; the
  output's buffer after the body is the one store's value over the loaded blocks.
-/
import proofs.«166798_j28432683500169_2_alg».proof.Proof.Gen.Kernel.Launch
import proofs.«166798_j28432683500169_2_alg».proof.Proof.Gen.Kernel.Skeleton
import proofs.«166798_j28432683500169_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel's call -/

/-- Every buffer of core `c` when the kernel is called: the launch contents after the host operations before the call. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store address a whole buffer -/

abbrev rA : Rect S1x2176 := Rect.unit (s := S1x2176) ![0, 0] S1x2176.size inb_S1x2176_S1x2176_0_0
abbrev rB : Rect S1x2048 := Rect.unit (s := S1x2048) ![0, 0] S1x2048.size inb_S1x2048_S1x2048_0_0
abbrev rC : Rect S1x128 := Rect.unit (s := S1x128) ![0, 0] S1x128.size inb_S1x128_S1x128_0_0
abbrev rD : Rect S128x2176 := Rect.unit (s := S128x2176) ![0, 0] S128x2176.size inb_S128x2176_S128x2176_0_0
abbrev rE : Rect S128x2048 := Rect.unit (s := S128x2048) ![0, 0] S128x2048.size inb_S128x2048_S128x2048_0_0

/-- The output window's staging buffer after the body, from the fifteen input blocks: its one store. -/
def out15 (x0 : Vec F S1x2176 .f32) (x1 : Vec F S1x2048 .f32) (x2 : Vec F S1x128 .f32) (x3 : Vec F S128x2176 .f32) (x4 : Vec F S128x2176 .f32) (x5 : Vec F S128x2176 .f32) (x6 : Vec F S128x2048 .f32) (x7 : Vec F S128x2048 .f32) (x8 : Vec F S128x2048 .f32) (x9 : Vec F S1x128 .f32) (x10 : Vec F S1x128 .f32) (x11 : Vec F S1x128 .f32) (x12 : Vec F S1x128 .f32) (x13 : Vec F S1x128 .f32) (x14 : Vec F S1x128 .f32) : Vec F S1x128 .f32 :=
  View.canon [⟨rC, k0_pay1 (k0_pay3 (View.ld x1 rB)) (k0_pay4 (View.ld x2 rC)) (k0_pay5 (View.ld x0 rA) (View.ld x3 rD) (View.ld x9 rC)) (k0_pay6 (View.ld x0 rA) (View.ld x4 rD) (View.ld x10 rC)) (k0_pay7 (View.ld x0 rA) (View.ld x5 rD) (View.ld x11 rC)) (k0_pay8 (View.ld x1 rB) (View.ld x6 rE) (View.ld x12 rC)) (k0_pay9 (View.ld x1 rB) (View.ld x7 rE)) (View.ld x13 rC) (View.ld x8 rE) (View.ld x14 rC)⟩]

/-- The store covers the buffer. -/
theorem cover15 (p0 : Vec F S1x128 .f32) (y : S1x128.Idx) :
    ∃ pc ∈ ([⟨rC, p0⟩] : List (View.Piece (Elt F) S1x128 .f32)), y ∈ pc.1.set :=
  View.cover_of_tiled [⟨rC, p0⟩] S1x128.size (by rfl) y

/-! ## The body's triple -/

set_option maxHeartbeats 4000000 in
/-- On whole staging buffers, the inputs' at contents `xW` and the output's at anything, the body runs to the inputs'
    buffers as they were and the output's at `out15` of the inputs'. -/
theorem sound_kernel (c : Dev nD) (E : Set ℕ) (i : grid0.Coords) (arg1 : Memref sig .tc .vmem S1x2176 .f32) (harg1 : arg1.IsWhole) (arg2 : Memref sig .tc .vmem S1x2048 .f32) (harg2 : arg2.IsWhole) (arg3 : Memref sig .tc .vmem S1x128 .f32) (harg3 : arg3.IsWhole) (arg4 : Memref sig .tc .vmem S128x2176 .f32) (harg4 : arg4.IsWhole) (arg5 : Memref sig .tc .vmem S128x2176 .f32) (harg5 : arg5.IsWhole) (arg6 : Memref sig .tc .vmem S128x2176 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole)
    (x0 : Vec F S1x2176 .f32) (x1 : Vec F S1x2048 .f32) (x2 : Vec F S1x128 .f32) (x3 : Vec F S128x2176 .f32) (x4 : Vec F S128x2176 .f32) (x5 : Vec F S128x2176 .f32) (x6 : Vec F S128x2048 .f32) (x7 : Vec F S128x2048 .f32) (x8 : Vec F S128x2048 .f32) (x9 : Vec F S1x128 .f32) (x10 : Vec F S1x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 x0 x1 x2 x3 x4 x5 x6 x7 x8 x9 x10 x11 x12 x13 x14)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover15 _)

/-! ## The pipeline's data -/

/-- The pipeline's data on core `c`: the arrays as the call finds them; after the body at point `t` each input's buffer
    at its block and the output's at `out15` of the input blocks; the invariant is the scoped rest and the generator
    register, untouched; nothing owed. Windows on one array share it: a half each for two, a half and two quarters for
    three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q w := match w with
    | ⟨0, _⟩ => fullShare
    | ⟨1, _⟩ => fullShare.left
    | ⟨2, _⟩ => fullShare.right
    | ⟨3, _⟩ => fullShare.left
    | ⟨4, _⟩ => fullShare.right.left
    | ⟨5, _⟩ => fullShare.right.right
    | ⟨6, _⟩ => fullShare.left
    | ⟨7, _⟩ => fullShare.right.left
    | ⟨8, _⟩ => fullShare.right.right
    | ⟨9, _⟩ => fullShare.left
    | ⟨10, _⟩ => fullShare.right.left
    | ⟨11, _⟩ => fullShare.right.right
    | ⟨12, _⟩ => fullShare.left
    | ⟨13, _⟩ => fullShare.right.left
    | ⟨14, _⟩ => fullShare.right.right
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.LibSharedFrame.lean ====
/-
  The frame run of a one-region program whose windows may SHARE an array (one argument handed to the kernel through
  several input windows), with host operations before and after the region.

  When the windows' arrays are pairwise distinct, each array is held whole at the full share and the run around the
  region is the library's. When two input windows read one array, each holds only a part of that array's share, and two
  things have to be said by the certificate: how the buffers behind the arrays, each whole at the full share, are dealt
  out to the windows at the region's entry (`hsplit`), and that at the region's exit the windows' holdings are again
  those buffers whole at the full share, at exit contents `Wx` (`hjoin`). Between the two the operations after the
  region run exactly as they do for distinct arrays: within all the unscoped buffers held at `Wx`, writing no array.
  The conclusion names every window's array at what the proof data computes and every bypassing buffer at what the
  later operations leave of the exit contents.
-/
import Idealize.ShloMosaic.Lib.Pipeline.FrameSuffix

noncomputable section

namespace Idealize.ShloMosaic.Pipeline.SharedFrame

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the run: each window's array at what the proof data computes after the last point, and every
    unscoped buffer that is no window's array at `W`. -/
def Post (W : (c : Dev nD) → (b : Ref sig .tc) → Buf Val ((c.tc : Thread nD τ).loc b)) (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = W c b

/-- The buffers behind the arrays and the bypassing buffers, all at one valuation, are every unscoped buffer held at it. -/
theorem all_held (hunscoped : ∀ w, (arrRef (cfg).spec w).isScoped = false) (c : Dev nD) (W : Valuation τ sig Val) :
    iprop((arrBufs (cfg).spec c (fun b => W (Proc.devRef .tc b)) : sProp 𝕄) ∗ unscopedRest (cfg).spec c (fun b => W (Proc.devRef .tc b)))
      = StableHlo.held (c.tc : Thread nD τ) (ucRefs τ sig) W := by
  rw [← unscopedBufs_split₀ cfgs p hunscoped c (fun b => W (Proc.devRef .tc b))]
  exact unscopedBufs_held (Ix := Unit) (Name := ℕ) (U := UR sig nD τ) (Lvl := ℕ) c W

/-- THE LINES AFTER THE REGION, for windows that may share arrays: from the region's exit — the boundary, the windows'
    holdings, which are the buffers behind the arrays whole at `Wx` (`hjoin`), and the bypassing buffers at `V`, where
    `Wx` is `V` — the lines run within the unscoped buffers, write no array, and hand back the windows' holdings and the
    bypassing buffers at what the lines leave. -/
theorem tail_shared (hunscoped : ∀ w, (arrRef (cfg).spec w).isScoped = false)
    (c : Dev nD) (V Wx : Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (AN : sProp 𝕄)
    (hjoin₁ : AN ⊢ arrBufs (cfg).spec c (fun b => Wx (Proc.devRef .tc b)))
    (hjoin₂ : (arrBufs (cfg).spec c (fun b => Wx (Proc.devRef .tc b)) : sProp 𝕄) ⊢ AN)
    (hWx : ∀ b : Ref sig .tc, (∀ w, arrRef (cfg).spec w ≠ b) → Wx (Proc.devRef .tc b) = V (Proc.devRef .tc b))
    (Q' : PUnit → sProp 𝕄) :
    iprop((iprop(AN ∗ unscopedRest (cfg).spec c (fun b => StableHlo.after opss.flatten Wx (Proc.devRef .tc b))) -∗ Q' ⟨⟩)
        ∗ boundary (c.tc : Thread nD τ) ∗ AN ∗ unscopedRest (cfg).spec c (fun b => V (Proc.devRef .tc b)))
      ⊢ wp frame (wpE 𝔻 (Variants.lift 𝒱₀) (c.tc : Thread nD τ) none) Set.univ (chain (opss.map StableHlo.seq)) Q' := by
  classical
  -- the bypassing buffers hold `Wx`, which is `V` on them
  have hrest : (unscopedRest (cfg).spec c (fun b => V (Proc.devRef .tc b)) : sProp 𝕄)
      = unscopedRest (cfg).spec c (fun b => Wx (Proc.devRef .tc b)) := by
    unfold unscopedRest
    exact bigSep_congr fun b hb => by
      dsimp only
      rw [hWx b fun w e => (Finset.mem_sdiff.mp hb).2 (Finset.mem_image.mpr ⟨w, Finset.mem_univ _, e⟩)]
  -- no line writes an array: the buffers behind the arrays hold `Wx` after the lines too
  have harr : (arrBufs (cfg).spec c (fun b => StableHlo.after opss.flatten Wx (Proc.devRef .tc b)) : sProp 𝕄)
      = arrBufs (cfg).spec c (fun b => Wx (Proc.devRef .tc b)) := by
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  have hpre : iprop(boundary (c.tc : Thread nD τ) ∗ AN ∗ unscopedRest (cfg).spec c (fun b => V (Proc.devRef .tc b)))
      ⊢ iprop(boundary (c.tc : Thread nD τ) ∗ (StableHlo.held (c.tc : Thread nD τ) (ucRefs τ sig) Wx : sProp 𝕄)) := by
    rw [hrest, ← all_held cfgs p hunscoped c Wx]
    exact sep_mono .rfl (sep_mono hjoin₁ .rfl)
  have hpost : (StableHlo.held (c.tc : Thread nD τ) (ucRefs τ sig) (StableHlo.after opss.flatten Wx) : sProp 𝕄)
      ⊢ iprop(AN ∗ unscopedRest (cfg).spec c (fun b => StableHlo.after opss.flatten Wx (Proc.devRef .tc b))) := by
    rw [← all_held cfgs p hunscoped c (StableHlo.after opss.flatten Wx), harr]
    exact sep_mono hjoin₂ .rfl
  rw [← List.append_nil (opss.map StableHlo.seq)]
  iintro ⟨Hk, Hb⟩
  ihave Hb := hpre $$ Hb
  iapply (wp_seqs_then (fun q => Cfg.toPCfg (Val := Val) (cfgs q)) defs₀ 𝒱₀ c (ucRefs τ sig) [] opss hsub hfresh Wx) $$ Hb
  iintro Hb
  rw [chain_nil, wp_pure]
  imodintro
  iapply Hk
  icases Hb with ⟨-, H⟩
  iapply hpost
  iexact H

/-- THE FRAME RUN around the region for windows that may share arrays: as the library's run for distinct arrays
    (`θ_run_frame_around_track`), with the layout facts less the arrays' distinctness, the deal of the buffers behind
    the arrays at entry (`hsplit`) and their reassembly at exit, at the exit valuation `Wx` (`hjoin₁`, `hjoin₂`, `hWx`). -/
theorem θ_run_frame_around_shared
    (hw : WinFacts₀ (cfg).spec) (hcell : Function.Injective (cellOf (nD := nD) (τ := τ) cfgs))
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hjoin₁ : ∀ c, (dats p c).arrays ((dats p c).arrAt · (cfg).N) ⊢ (arrBufs (cfg).spec c (fun b => Wx c (Proc.devRef .tc b)) : sProp 𝕄))
    (hjoin₂ : ∀ c, (arrBufs (cfg).spec c (fun b => Wx c (Proc.devRef .tc b)) : sProp 𝕄) ⊢ (dats p c).arrays ((dats p c).arrAt · (cfg).N))
    (hWx : ∀ c (b : Ref sig .tc), (∀ w, arrRef (cfg).spec w ≠ b) → Wx c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (Post cfgs dats p (fun c b => StableHlo.after opss.flatten (Wx c) (Proc.devRef .tc b))) := by
  classical
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells _ hcell') (launchToks _ hcell'))
    (hu₀ := by
      iintro Hu; imodintro
      isplitl [Hu]; · iapply (show (ownU _ : sProp 𝕄) ⊢ BI.own (emb₁ (initOf (cells _ hcell') (launchToks _ hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (Wx c) (Proc.devRef .tc b)))
    (hX := fun c => by
      rw [show (unscopedRestP (Ix := Unit) (Name := ℕ) (U := UR sig nD τ) (Lvl := ℕ) ((cfg).toPCfg (Val := Val)).pre (cfg).spec c (fun b => V₀ c (Proc.devRef .tc b)) : sProp 𝕄)
        = unscopedRest (cfg).spec c (fun b => V₀ c (Proc.devRef .tc b)) from unscopedRestP_none _ _ _]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_shared cfgs p defs₀ 𝒱₀ hw.arr_unscoped c (V₀ c) (Wx c) opss hsub hfresh hkeep _ (hjoin₁ c) (hjoin₂ c) (hWx c) Q')
    (QY := fun c s => ∀ b ∈ restRefs sig (cfg).spec, s.mem ((c.tc : Thread nD τ).loc b) = StableHlo.after opss.flatten (Wx c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (Wx c) (Proc.devRef .tc b)) s')
      isplitl [HU] <;> iassumption)
    (hQ := fun s h c => ⟨(h c).1, (h c).2.2⟩)

end Idealize.ShloMosaic.Pipeline.SharedFrame

end
-- ==== Proof.KernelRun.lean ====
/-
  The run of the whole program around the kernel's call, and its frame.

  At the call's entry the seven arrays behind the sixteen windows are held whole; they are dealt to the windows by
  splitting shares (the previous state in two halves, each weight and bias array in a half and two quarters), and at
  the exit the same shares are joined again: the input arrays hold what they held, the output array what the sixteen
  write-backs left. The host operations after the call read the output array and the arguments and write fresh buffers
  only.
-/
import proofs.«166798_j28432683500169_2_alg».proof.Proof.KernelBody
import proofs.«166798_j28432683500169_2_alg».proof.Proof.LibSharedFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The windows' holdings, window by window, at contents `G` of each window's array. -/
def dealt (c : Dev nD) (G : (b : Ref sig .tc) → Buf (Elt F) ((c.tc : Thread nD τ).loc b)) : sProp 𝕄 :=
  iprop((((c.tc : Thread nD τ).loc main_call0_v51) ↦{fullShare} G main_call0_v51)
      ∗ (((c.tc : Thread nD τ).loc main_call0_v0) ↦{fullShare.left} G main_call0_v0)
      ∗ (((c.tc : Thread nD τ).loc main_call0_v0) ↦{fullShare.right} G main_call0_v0)
      ∗ (((c.tc : Thread nD τ).loc main_arg8) ↦{fullShare.left} G main_arg8)
      ∗ (((c.tc : Thread nD τ).loc main_arg8) ↦{fullShare.right.left} G main_arg8)
      ∗ (((c.tc : Thread nD τ).loc main_arg8) ↦{fullShare.right.right} G main_arg8)
      ∗ (((c.tc : Thread nD τ).loc main_arg9) ↦{fullShare.left} G main_arg9)
      ∗ (((c.tc : Thread nD τ).loc main_arg9) ↦{fullShare.right.left} G main_arg9)
      ∗ (((c.tc : Thread nD τ).loc main_arg9) ↦{fullShare.right.right} G main_arg9)
      ∗ (((c.tc : Thread nD τ).loc main_call0_v52) ↦{fullShare.left} G main_call0_v52)
      ∗ (((c.tc : Thread nD τ).loc main_call0_v52) ↦{fullShare.right.left} G main_call0_v52)
      ∗ (((c.tc : Thread nD τ).loc main_call0_v52) ↦{fullShare.right.right} G main_call0_v52)
      ∗ (((c.tc : Thread nD τ).loc main_call0_v53) ↦{fullShare.left} G main_call0_v53)
      ∗ (((c.tc : Thread nD τ).loc main_call0_v53) ↦{fullShare.right.left} G main_call0_v53)
      ∗ (((c.tc : Thread nD τ).loc main_call0_v53) ↦{fullShare.right.right} G main_call0_v53)
      ∗ (((c.tc : Thread nD τ).loc main_call0_v54) ↦{fullShare} G main_call0_v54))

set_option maxHeartbeats 4000000 in
/-- The pipeline's arrays at contents that are `G` of each window's array are the windows' holdings. -/
theorem arrays_dealt (c : Dev nD) (G : (b : Ref sig .tc) → Buf (Elt F) ((c.tc : Thread nD τ).loc b))
    (A : (w : Fin cfg0.W) → Buf (Elt F) ((cfg0.win w).arr.view.loc (c.tc : Thread nD τ)))
    (hA : ∀ w, A w = G (Pipeline.arrRef spec0 w)) :
    (dats m 0 c).arrays A = dealt c G := by
  unfold Dat.arrays dealt
  rw [bigSep_W0]
  simp only [hA]
  rw [(arr_whole0 0).set_eq_univ]
  rw [(arr_whole0 1).set_eq_univ]
  rw [(arr_whole0 3).set_eq_univ]
  rw [(arr_whole0 6).set_eq_univ]
  rw [(arr_whole0 9).set_eq_univ]
  rw [(arr_whole0 12).set_eq_univ]
  rw [(arr_whole0 15).set_eq_univ]
  rfl

/-- The seven arrays behind the windows, one by one. -/
theorem arrBufs_chain (c : Dev nD) (G : (b : Ref sig .tc) → Buf (Elt F) ((c.tc : Thread nD τ).loc b)) :
    (Pipeline.arrBufs spec0 c G : sProp 𝕄) = iprop((((c.tc : Thread nD τ).loc main_call0_v51) ↦{fullShare} G main_call0_v51)
      ∗ (((c.tc : Thread nD τ).loc main_call0_v0) ↦{fullShare} G main_call0_v0)
      ∗ (((c.tc : Thread nD τ).loc main_arg8) ↦{fullShare} G main_arg8)
      ∗ (((c.tc : Thread nD τ).loc main_arg9) ↦{fullShare} G main_arg9)
      ∗ (((c.tc : Thread nD τ).loc main_call0_v52) ↦{fullShare} G main_call0_v52)
      ∗ (((c.tc : Thread nD τ).loc main_call0_v53) ↦{fullShare} G main_call0_v53)
      ∗ (((c.tc : Thread nD τ).loc main_call0_v54) ↦{fullShare} G main_call0_v54)) :=
  bigSep_eq_bigSepL_of_eq [main_call0_v51, main_call0_v0, main_arg8, main_arg9, main_call0_v52, main_call0_v53, main_call0_v54] (by decide) (by decide) _

set_option maxHeartbeats 4000000 in
/-- The seven arrays, each whole, are the windows' holdings: shares split and joined. -/
theorem deal (c : Dev nD) (G : (b : Ref sig .tc) → Buf (Elt F) ((c.tc : Thread nD τ).loc b)) :
    (Pipeline.arrBufs spec0 c G : sProp 𝕄) ⊣⊢ dealt c G := by
  rw [arrBufs_chain]
  unfold dealt
  have h2 : ∀ (b : Ref sig .tc) (f : Buf (Elt F) ((c.tc : Thread nD τ).loc b)),
      (((c.tc : Thread nD τ).loc b) ↦{fullShare} f : sProp 𝕄)
        ⊣⊢ iprop((((c.tc : Thread nD τ).loc b) ↦{fullShare.left} f) ∗ ((c.tc : Thread nD τ).loc b) ↦{fullShare.right} f) :=
    fun b f => pointsTo_share (PosShare.mem_left_op_right fullShare)
  have h3 : ∀ (b : Ref sig .tc) (f : Buf (Elt F) ((c.tc : Thread nD τ).loc b)),
      (((c.tc : Thread nD τ).loc b) ↦{fullShare.right} f : sProp 𝕄)
        ⊣⊢ iprop((((c.tc : Thread nD τ).loc b) ↦{fullShare.right.left} f) ∗ ((c.tc : Thread nD τ).loc b) ↦{fullShare.right.right} f) :=
    fun b f => pointsTo_share (PosShare.mem_left_op_right fullShare.right)
  constructor
  · iintro ⟨H51, H0, H8, H9, H52, H53, H54⟩
    icases (h2 _ _).1 $$ H0 with ⟨H0a, H0b⟩
    icases (h2 _ _).1 $$ H8 with ⟨H8a, H8r⟩
    icases (h3 _ _).1 $$ H8r with ⟨H8b, H8c⟩
    icases (h2 _ _).1 $$ H9 with ⟨H9a, H9r⟩
    icases (h3 _ _).1 $$ H9r with ⟨H9b, H9c⟩
    icases (h2 _ _).1 $$ H52 with ⟨H52a, H52r⟩
    icases (h3 _ _).1 $$ H52r with ⟨H52b, H52c⟩
    icases (h2 _ _).1 $$ H53 with ⟨H53a, H53r⟩
    icases (h3 _ _).1 $$ H53r with ⟨H53b, H53c⟩
    isplitl [H51]; · iexact H51
    isplitl [H0a]; · iexact H0a
    isplitl [H0b]; · iexact H0b
    isplitl [H8a]; · iexact H8a
    isplitl [H8b]; · iexact H8b
    isplitl [H8c]; · iexact H8c
    isplitl [H9a]; · iexact H9a
    isplitl [H9b]; · iexact H9b
    isplitl [H9c]; · iexact H9c
    isplitl [H52a]; · iexact H52a
    isplitl [H52b]; · iexact H52b
    isplitl [H52c]; · iexact H52c
    isplitl [H53a]; · iexact H53a
    isplitl [H53b]; · iexact H53b
    isplitl [H53c]; · iexact H53c
    iexact H54
  · iintro ⟨H51, H0a, H0b, H8a, H8b, H8c, H9a, H9b, H9c, H52a, H52b, H52c, H53a, H53b, H53c, H54⟩
    isplitl [H51]; · iexact H51
    isplitl [H0a H0b]
    · iapply (h2 _ _).2; isplitl [H0a]; · iexact H0a
      iexact H0b
    isplitl [H8a H8b H8c]
    · iapply (h2 _ _).2; isplitl [H8a]; · iexact H8a
      iapply (h3 _ _).2; isplitl [H8b]; · iexact H8b
      iexact H8c
    isplitl [H9a H9b H9c]
    · iapply (h2 _ _).2; isplitl [H9a]; · iexact H9a
      iapply (h3 _ _).2; isplitl [H9b]; · iexact H9b
      iexact H9c
    isplitl [H52a H52b H52c]
    · iapply (h2 _ _).2; isplitl [H52a]; · iexact H52a
      iapply (h3 _ _).2; isplitl [H52b]; · iexact H52b
      iexact H52c
    isplitl [H53a H53b H53c]
    · iapply (h2 _ _).2; isplitl [H53a]; · iexact H53a
      iapply (h3 _ _).2; isplitl [H53b]; · iexact H53b
      iexact H53c
    iexact H54

/-! ## The contents at the call's exit -/

/-- Every buffer of core `c` when the call returns: the output array at what the write-backs left, every other buffer
    as the call found it. -/
def Wx (c : Dev nD) : Valuation τ sig (Elt F) :=
  Function.update (V0 m c) (Proc.devRef .tc main_call0_v54) ((dats m 0 c).arrAt 15 cfg0.N)

theorem Wx_out (c : Dev nD) : Wx m c (Proc.devRef .tc main_call0_v54) = (dats m 0 c).arrAt 15 cfg0.N := by
  unfold Wx; exact Function.update_self _ _ _

theorem Wx_of_ne (c : Dev nD) (b : Ref sig .tc) (hb : b ≠ main_call0_v54) : Wx m c (Proc.devRef .tc b) = V0 m c (Proc.devRef .tc b) := by
  unfold Wx; exact Function.update_of_ne (StableHlo.devRef_ne_of_ne hb) _ _

/-- At entry each window's array holds what the call finds. -/
theorem arrAt_entry (c : Dev nD) (w : Fin cfg0.W) : (dats m 0 c).arrAt w 0 = V m c (Pipeline.arrRef spec0 w) := A_eq m c w

/-- Every window but the last is an input window, and its array is not the output array. -/
theorem input_facts : ∀ w : Fin 16, w ≠ 15 → (win0 w).isOut = false ∧ Pipeline.arrRef spec0 w ≠ main_call0_v54 := by decide

/-- At exit an input window's array holds what the call found, the output's what the write-backs left. -/
theorem arrAt_exit (c : Dev nD) (w : Fin cfg0.W) :
    (dats m 0 c).arrAt w cfg0.N = Wx m c (Proc.devRef .tc (Pipeline.arrRef spec0 w)) := by
  by_cases hw : w = (15 : Fin 16)
  · subst hw; exact (Wx_out m c).symm
  · obtain ⟨hin, hne⟩ := input_facts w hw
    exact (((dats m 0 c).arrAt_in w hin _).trans (A_eq m c w)).trans (Wx_of_ne m c _ hne).symm

/-! ## The host operations after the call -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- No window's array is a result buffer of a host operation after the call. -/
theorem arr_ne_results : ∀ w : Fin 16, Pipeline.arrRef spec0 w ≠ main_call0_v55 ∧ Pipeline.arrRef spec0 w ≠ main_call0_v56
    ∧ Pipeline.arrRef spec0 w ≠ main_call0_v57 ∧ Pipeline.arrRef spec0 w ≠ main_v0_0 ∧ Pipeline.arrRef spec0 w ≠ main_v0_1 := by decide

/-- They write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.2.1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.2.2.1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.2.2.2

/-! ## The run -/

set_option backward.isDefEq.respectTransparency.types false in
/-- From any memory with zero counters every weakly fair execution of the program terminates, and the final state has
    each window's array at what the pipeline's data computes and every other unscoped buffer at what the later host
    operations leave of the exit contents. -/
theorem run_main : θ_run defs (onTc (τ := τ) (main (F := F))) (s₀ m ρ)
    (Pipeline.SharedFrame.Post cfgs (dats m) 0 (fun c b => StableHlo.after [hostOps1].flatten (Wx m c) (Proc.devRef .tc b))) :=
  Pipeline.SharedFrame.θ_run_frame_around_shared cfgs (dats m) (0 : Fin 1) defs₀ Variants.none
    winFacts₀0 cellOf_inj block_pos0 arr_whole0 stage_whole0 m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none)
    (hsplit := fun c => (deal c (V m c)).1.trans (Entails.of_eq (arrays_dealt m c (V m c) _ (arrAt_entry m c)).symm))
    (hjoin₁ := fun c => (Entails.of_eq (arrays_dealt m c (fun b => Wx m c (Proc.devRef .tc b)) _ (arrAt_exit m c))).trans (deal c _).2)
    (hjoin₂ := fun c => (deal c _).1.trans (Entails.of_eq (arrays_dealt m c (fun b => Wx m c (Proc.devRef .tc b)) _ (arrAt_exit m c)).symm))
    (hWx := fun c b hb => Wx_of_ne m c b (fun e => hb 15 e.symm))
    (hin := fun _ => .rfl) (hout := fun _ => .rfl)

/-! ## The frame -/

/-- No host operation before the call writes this argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the call writes this argument, and it is no window's array. -/
theorem W_main_arg0 (c : Dev nD) :
    StableHlo.after [hostOps1].flatten (Wx m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg0 (by decide)]
  exact V_main_arg0 m c
/-- No host operation after the call writes this argument, and it is no window's array. -/
theorem W_main_arg1 (c : Dev nD) :
    StableHlo.after [hostOps1].flatten (Wx m c) (Proc.devRef .tc main_arg1) = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg1 (by decide)]
  exact V_main_arg1 m c
/-- No host operation after the call writes this argument, and it is no window's array. -/
theorem W_main_arg2 (c : Dev nD) :
    StableHlo.after [hostOps1].flatten (Wx m c) (Proc.devRef .tc main_arg2) = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg2 (by decide)]
  exact V_main_arg2 m c
/-- No host operation after the call writes this argument, and it is no window's array. -/
theorem W_main_arg3 (c : Dev nD) :
    StableHlo.after [hostOps1].flatten (Wx m c) (Proc.devRef .tc main_arg3) = m ((c : Thread nD τ).loc main_arg3) := by
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg3 (by decide)]
  exact V_main_arg3 m c
/-- No host operation after the call writes this argument, and it is no window's array. -/
theorem W_main_arg4 (c : Dev nD) :
    StableHlo.after [hostOps1].flatten (Wx m c) (Proc.devRef .tc main_arg4) = m ((c : Thread nD τ).loc main_arg4) := by
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg4 (by decide)]
  exact V_main_arg4 m c
/-- No host operation after the call writes this argument, and it is no window's array. -/
theorem W_main_arg5 (c : Dev nD) :
    StableHlo.after [hostOps1].flatten (Wx m c) (Proc.devRef .tc main_arg5) = m ((c : Thread nD τ).loc main_arg5) := by
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg5 (by decide)]
  exact V_main_arg5 m c
/-- No host operation after the call writes this argument, and it is no window's array. -/
theorem W_main_arg6 (c : Dev nD) :
    StableHlo.after [hostOps1].flatten (Wx m c) (Proc.devRef .tc main_arg6) = m ((c : Thread nD τ).loc main_arg6) := by
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg6 (by decide)]
  exact V_main_arg6 m c
/-- No host operation after the call writes this argument, and it is no window's array. -/
theorem W_main_arg7 (c : Dev nD) :
    StableHlo.after [hostOps1].flatten (Wx m c) (Proc.devRef .tc main_arg7) = m ((c : Thread nD τ).loc main_arg7) := by
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg7 (by decide)]
  exact V_main_arg7 m c
/-- No host operation after the call writes this argument, and it is no window's array. -/
theorem W_main_arg10 (c : Dev nD) :
    StableHlo.after [hostOps1].flatten (Wx m c) (Proc.devRef .tc main_arg10) = m ((c : Thread nD τ).loc main_arg10) := by
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg10 (by decide)]
  exact V_main_arg10 m c
/-- No host operation after the call writes this argument, and it is no window's array. -/
theorem W_main_arg11 (c : Dev nD) :
    StableHlo.after [hostOps1].flatten (Wx m c) (Proc.devRef .tc main_arg11) = m ((c : Thread nD τ).loc main_arg11) := by
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg11 (by decide)]
  exact V_main_arg11 m c
/-- No host operation after the call writes this argument, and it is no window's array. -/
theorem W_main_arg12 (c : Dev nD) :
    StableHlo.after [hostOps1].flatten (Wx m c) (Proc.devRef .tc main_arg12) = m ((c : Thread nD τ).loc main_arg12) := by
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg12 (by decide)]
  exact V_main_arg12 m c
/-- No host operation after the call writes this argument, and it is no window's array. -/
theorem W_main_arg13 (c : Dev nD) :
    StableHlo.after [hostOps1].flatten (Wx m c) (Proc.devRef .tc main_arg13) = m ((c : Thread nD τ).loc main_arg13) := by
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg13 (by decide)]
  exact V_main_arg13 m c

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).1 3).trans (((dats m 0 c).arrAt_in 3 rfl _).trans ((A_eq m c 3).trans (V_main_arg8 m c))),
      ((h c).1 6).trans (((dats m 0 c).arrAt_in 6 rfl _).trans ((A_eq m c 6).trans (V_main_arg9 m c))),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c),
      ((h c).2 main_arg13 (Pipeline.mem_restRefs_of main_arg13 (by decide) (by decide))).trans (W_main_arg13 m c)⟩) (run_main m ρ)

end Cert.Kernel.Frame

end
-- ==== Proof.KernelIdealBody.lean ====
/-
  The body of the gated-recurrent-cell kernel at one grid point, and the data of its pipeline.

  The kernel visits sixteen blocks of 128 hidden units. At each block it reads the whole input row, the whole previous
  state, and that block's rows of the two stacked weight matrices and bias rows (three row blocks of each, one per
  gate), and stores the block's 128 new state entries. Several windows read one array (the previous state through two
  windows, each weight and bias array through three), so each such window holds only a part of the array's share:
  the previous state's two windows a half each, the three windows of a weight or bias array a half and two quarters.
  What a staging buffer holds before the body is its window's block of the array as the kernel's call finds it; the
  output's buffer after the body is the one store's value over the loaded blocks.
-/
import proofs.«166798_j28432683500169_2_alg».proof.Proof.Gen.KernelIdeal.Launch
import proofs.«166798_j28432683500169_2_alg».proof.Proof.Gen.KernelIdeal.Skeleton
import proofs.«166798_j28432683500169_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel's call -/

/-- Every buffer of core `c` when the kernel is called: the launch contents after the host operations before the call. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whether the point fetches it or not. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store address a whole buffer -/

abbrev rA : Rect S1x2176 := Rect.unit (s := S1x2176) ![0, 0] S1x2176.size inb_S1x2176_S1x2176_0_0
abbrev rB : Rect S1x2048 := Rect.unit (s := S1x2048) ![0, 0] S1x2048.size inb_S1x2048_S1x2048_0_0
abbrev rC : Rect S1x128 := Rect.unit (s := S1x128) ![0, 0] S1x128.size inb_S1x128_S1x128_0_0
abbrev rD : Rect S128x2176 := Rect.unit (s := S128x2176) ![0, 0] S128x2176.size inb_S128x2176_S128x2176_0_0
abbrev rE : Rect S128x2048 := Rect.unit (s := S128x2048) ![0, 0] S128x2048.size inb_S128x2048_S128x2048_0_0

/-- The output window's staging buffer after the body, from the fifteen input blocks: its one store. -/
def out15 (x0 : Vec F S1x2176 .f32) (x1 : Vec F S1x2048 .f32) (x2 : Vec F S1x128 .f32) (x3 : Vec F S128x2176 .f32) (x4 : Vec F S128x2176 .f32) (x5 : Vec F S128x2176 .f32) (x6 : Vec F S128x2048 .f32) (x7 : Vec F S128x2048 .f32) (x8 : Vec F S128x2048 .f32) (x9 : Vec F S1x128 .f32) (x10 : Vec F S1x128 .f32) (x11 : Vec F S1x128 .f32) (x12 : Vec F S1x128 .f32) (x13 : Vec F S1x128 .f32) (x14 : Vec F S1x128 .f32) : Vec F S1x128 .f32 :=
  View.canon [⟨rC, k0_pay1 (k0_pay3 (View.ld x1 rB)) (k0_pay4 (View.ld x2 rC)) (k0_pay5 (View.ld x0 rA) (View.ld x3 rD) (View.ld x9 rC)) (k0_pay6 (View.ld x0 rA) (View.ld x4 rD) (View.ld x10 rC)) (k0_pay7 (View.ld x0 rA) (View.ld x5 rD) (View.ld x11 rC)) (k0_pay8 (View.ld x1 rB) (View.ld x6 rE) (View.ld x12 rC)) (k0_pay9 (View.ld x1 rB) (View.ld x7 rE)) (View.ld x13 rC) (View.ld x8 rE) (View.ld x14 rC)⟩]

/-- The store covers the buffer. -/
theorem cover15 (p0 : Vec F S1x128 .f32) (y : S1x128.Idx) :
    ∃ pc ∈ ([⟨rC, p0⟩] : List (View.Piece (Elt F) S1x128 .f32)), y ∈ pc.1.set :=
  View.cover_of_tiled [⟨rC, p0⟩] S1x128.size (by rfl) y

/-! ## The body's triple -/

set_option maxHeartbeats 4000000 in
/-- On whole staging buffers, the inputs' at contents `xW` and the output's at anything, the body runs to the inputs'
    buffers as they were and the output's at `out15` of the inputs'. -/
theorem sound_kernel (c : Dev nD) (E : Set ℕ) (i : grid0.Coords) (arg1 : Memref sig .tc .vmem S1x2176 .f32) (harg1 : arg1.IsWhole) (arg2 : Memref sig .tc .vmem S1x2048 .f32) (harg2 : arg2.IsWhole) (arg3 : Memref sig .tc .vmem S1x128 .f32) (harg3 : arg3.IsWhole) (arg4 : Memref sig .tc .vmem S128x2176 .f32) (harg4 : arg4.IsWhole) (arg5 : Memref sig .tc .vmem S128x2176 .f32) (harg5 : arg5.IsWhole) (arg6 : Memref sig .tc .vmem S128x2176 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole)
    (x0 : Vec F S1x2176 .f32) (x1 : Vec F S1x2048 .f32) (x2 : Vec F S1x128 .f32) (x3 : Vec F S128x2176 .f32) (x4 : Vec F S128x2176 .f32) (x5 : Vec F S128x2176 .f32) (x6 : Vec F S128x2048 .f32) (x7 : Vec F S128x2048 .f32) (x8 : Vec F S128x2048 .f32) (x9 : Vec F S1x128 .f32) (x10 : Vec F S1x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 x0 x1 x2 x3 x4 x5 x6 x7 x8 x9 x10 x11 x12 x13 x14)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover15 _)

/-! ## The pipeline's data -/

/-- The pipeline's data on core `c`: the arrays as the call finds them; after the body at point `t` each input's buffer
    at its block and the output's at `out15` of the input blocks; the invariant is the scoped rest and the generator
    register, untouched; nothing owed. Windows on one array share it: a half each for two, a half and two quarters for
    three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q w := match w with
    | ⟨0, _⟩ => fullShare
    | ⟨1, _⟩ => fullShare.left
    | ⟨2, _⟩ => fullShare.right
    | ⟨3, _⟩ => fullShare.left
    | ⟨4, _⟩ => fullShare.right.left
    | ⟨5, _⟩ => fullShare.right.right
    | ⟨6, _⟩ => fullShare.left
    | ⟨7, _⟩ => fullShare.right.left
    | ⟨8, _⟩ => fullShare.right.right
    | ⟨9, _⟩ => fullShare.left
    | ⟨10, _⟩ => fullShare.right.left
    | ⟨11, _⟩ => fullShare.right.right
    | ⟨12, _⟩ => fullShare.left
    | ⟨13, _⟩ => fullShare.right.left
    | ⟨14, _⟩ => fullShare.right.right
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KernelIdealRun.lean ====
/-
  The run of the whole program around the kernel's call, and its frame.

  At the call's entry the seven arrays behind the sixteen windows are held whole; they are dealt to the windows by
  splitting shares (the previous state in two halves, each weight and bias array in a half and two quarters), and at
  the exit the same shares are joined again: the input arrays hold what they held, the output array what the sixteen
  write-backs left. The host operations after the call read the output array and the arguments and write fresh buffers
  only.
-/
import proofs.«166798_j28432683500169_2_alg».proof.Proof.KernelIdealBody
import proofs.«166798_j28432683500169_2_alg».proof.Proof.LibSharedFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The windows' holdings, window by window, at contents `G` of each window's array. -/
def dealt (c : Dev nD) (G : (b : Ref sig .tc) → Buf (Elt F) ((c.tc : Thread nD τ).loc b)) : sProp 𝕄 :=
  iprop((((c.tc : Thread nD τ).loc main_call0_v51) ↦{fullShare} G main_call0_v51)
      ∗ (((c.tc : Thread nD τ).loc main_call0_v0) ↦{fullShare.left} G main_call0_v0)
      ∗ (((c.tc : Thread nD τ).loc main_call0_v0) ↦{fullShare.right} G main_call0_v0)
      ∗ (((c.tc : Thread nD τ).loc main_arg8) ↦{fullShare.left} G main_arg8)
      ∗ (((c.tc : Thread nD τ).loc main_arg8) ↦{fullShare.right.left} G main_arg8)
      ∗ (((c.tc : Thread nD τ).loc main_arg8) ↦{fullShare.right.right} G main_arg8)
      ∗ (((c.tc : Thread nD τ).loc main_arg9) ↦{fullShare.left} G main_arg9)
      ∗ (((c.tc : Thread nD τ).loc main_arg9) ↦{fullShare.right.left} G main_arg9)
      ∗ (((c.tc : Thread nD τ).loc main_arg9) ↦{fullShare.right.right} G main_arg9)
      ∗ (((c.tc : Thread nD τ).loc main_call0_v52) ↦{fullShare.left} G main_call0_v52)
      ∗ (((c.tc : Thread nD τ).loc main_call0_v52) ↦{fullShare.right.left} G main_call0_v52)
      ∗ (((c.tc : Thread nD τ).loc main_call0_v52) ↦{fullShare.right.right} G main_call0_v52)
      ∗ (((c.tc : Thread nD τ).loc main_call0_v53) ↦{fullShare.left} G main_call0_v53)
      ∗ (((c.tc : Thread nD τ).loc main_call0_v53) ↦{fullShare.right.left} G main_call0_v53)
      ∗ (((c.tc : Thread nD τ).loc main_call0_v53) ↦{fullShare.right.right} G main_call0_v53)
      ∗ (((c.tc : Thread nD τ).loc main_call0_v54) ↦{fullShare} G main_call0_v54))

set_option maxHeartbeats 4000000 in
/-- The pipeline's arrays at contents that are `G` of each window's array are the windows' holdings. -/
theorem arrays_dealt (c : Dev nD) (G : (b : Ref sig .tc) → Buf (Elt F) ((c.tc : Thread nD τ).loc b))
    (A : (w : Fin cfg0.W) → Buf (Elt F) ((cfg0.win w).arr.view.loc (c.tc : Thread nD τ)))
    (hA : ∀ w, A w = G (Pipeline.arrRef spec0 w)) :
    (dats m 0 c).arrays A = dealt c G := by
  unfold Dat.arrays dealt
  rw [bigSep_W0]
  simp only [hA]
  rw [(arr_whole0 0).set_eq_univ]
  rw [(arr_whole0 1).set_eq_univ]
  rw [(arr_whole0 3).set_eq_univ]
  rw [(arr_whole0 6).set_eq_univ]
  rw [(arr_whole0 9).set_eq_univ]
  rw [(arr_whole0 12).set_eq_univ]
  rw [(arr_whole0 15).set_eq_univ]
  rfl

/-- The seven arrays behind the windows, one by one. -/
theorem arrBufs_chain (c : Dev nD) (G : (b : Ref sig .tc) → Buf (Elt F) ((c.tc : Thread nD τ).loc b)) :
    (Pipeline.arrBufs spec0 c G : sProp 𝕄) = iprop((((c.tc : Thread nD τ).loc main_call0_v51) ↦{fullShare} G main_call0_v51)
      ∗ (((c.tc : Thread nD τ).loc main_call0_v0) ↦{fullShare} G main_call0_v0)
      ∗ (((c.tc : Thread nD τ).loc main_arg8) ↦{fullShare} G main_arg8)
      ∗ (((c.tc : Thread nD τ).loc main_arg9) ↦{fullShare} G main_arg9)
      ∗ (((c.tc : Thread nD τ).loc main_call0_v52) ↦{fullShare} G main_call0_v52)
      ∗ (((c.tc : Thread nD τ).loc main_call0_v53) ↦{fullShare} G main_call0_v53)
      ∗ (((c.tc : Thread nD τ).loc main_call0_v54) ↦{fullShare} G main_call0_v54)) :=
  bigSep_eq_bigSepL_of_eq [main_call0_v51, main_call0_v0, main_arg8, main_arg9, main_call0_v52, main_call0_v53, main_call0_v54] (by decide) (by decide) _

set_option maxHeartbeats 4000000 in
/-- The seven arrays, each whole, are the windows' holdings: shares split and joined. -/
theorem deal (c : Dev nD) (G : (b : Ref sig .tc) → Buf (Elt F) ((c.tc : Thread nD τ).loc b)) :
    (Pipeline.arrBufs spec0 c G : sProp 𝕄) ⊣⊢ dealt c G := by
  rw [arrBufs_chain]
  unfold dealt
  have h2 : ∀ (b : Ref sig .tc) (f : Buf (Elt F) ((c.tc : Thread nD τ).loc b)),
      (((c.tc : Thread nD τ).loc b) ↦{fullShare} f : sProp 𝕄)
        ⊣⊢ iprop((((c.tc : Thread nD τ).loc b) ↦{fullShare.left} f) ∗ ((c.tc : Thread nD τ).loc b) ↦{fullShare.right} f) :=
    fun b f => pointsTo_share (PosShare.mem_left_op_right fullShare)
  have h3 : ∀ (b : Ref sig .tc) (f : Buf (Elt F) ((c.tc : Thread nD τ).loc b)),
      (((c.tc : Thread nD τ).loc b) ↦{fullShare.right} f : sProp 𝕄)
        ⊣⊢ iprop((((c.tc : Thread nD τ).loc b) ↦{fullShare.right.left} f) ∗ ((c.tc : Thread nD τ).loc b) ↦{fullShare.right.right} f) :=
    fun b f => pointsTo_share (PosShare.mem_left_op_right fullShare.right)
  constructor
  · iintro ⟨H51, H0, H8, H9, H52, H53, H54⟩
    icases (h2 _ _).1 $$ H0 with ⟨H0a, H0b⟩
    icases (h2 _ _).1 $$ H8 with ⟨H8a, H8r⟩
    icases (h3 _ _).1 $$ H8r with ⟨H8b, H8c⟩
    icases (h2 _ _).1 $$ H9 with ⟨H9a, H9r⟩
    icases (h3 _ _).1 $$ H9r with ⟨H9b, H9c⟩
    icases (h2 _ _).1 $$ H52 with ⟨H52a, H52r⟩
    icases (h3 _ _).1 $$ H52r with ⟨H52b, H52c⟩
    icases (h2 _ _).1 $$ H53 with ⟨H53a, H53r⟩
    icases (h3 _ _).1 $$ H53r with ⟨H53b, H53c⟩
    isplitl [H51]; · iexact H51
    isplitl [H0a]; · iexact H0a
    isplitl [H0b]; · iexact H0b
    isplitl [H8a]; · iexact H8a
    isplitl [H8b]; · iexact H8b
    isplitl [H8c]; · iexact H8c
    isplitl [H9a]; · iexact H9a
    isplitl [H9b]; · iexact H9b
    isplitl [H9c]; · iexact H9c
    isplitl [H52a]; · iexact H52a
    isplitl [H52b]; · iexact H52b
    isplitl [H52c]; · iexact H52c
    isplitl [H53a]; · iexact H53a
    isplitl [H53b]; · iexact H53b
    isplitl [H53c]; · iexact H53c
    iexact H54
  · iintro ⟨H51, H0a, H0b, H8a, H8b, H8c, H9a, H9b, H9c, H52a, H52b, H52c, H53a, H53b, H53c, H54⟩
    isplitl [H51]; · iexact H51
    isplitl [H0a H0b]
    · iapply (h2 _ _).2; isplitl [H0a]; · iexact H0a
      iexact H0b
    isplitl [H8a H8b H8c]
    · iapply (h2 _ _).2; isplitl [H8a]; · iexact H8a
      iapply (h3 _ _).2; isplitl [H8b]; · iexact H8b
      iexact H8c
    isplitl [H9a H9b H9c]
    · iapply (h2 _ _).2; isplitl [H9a]; · iexact H9a
      iapply (h3 _ _).2; isplitl [H9b]; · iexact H9b
      iexact H9c
    isplitl [H52a H52b H52c]
    · iapply (h2 _ _).2; isplitl [H52a]; · iexact H52a
      iapply (h3 _ _).2; isplitl [H52b]; · iexact H52b
      iexact H52c
    isplitl [H53a H53b H53c]
    · iapply (h2 _ _).2; isplitl [H53a]; · iexact H53a
      iapply (h3 _ _).2; isplitl [H53b]; · iexact H53b
      iexact H53c
    iexact H54

/-! ## The contents at the call's exit -/

/-- Every buffer of core `c` when the call returns: the output array at what the write-backs left, every other buffer
    as the call found it. -/
def Wx (c : Dev nD) : Valuation τ sig (Elt F) :=
  Function.update (V0 m c) (Proc.devRef .tc main_call0_v54) ((dats m 0 c).arrAt 15 cfg0.N)

theorem Wx_out (c : Dev nD) : Wx m c (Proc.devRef .tc main_call0_v54) = (dats m 0 c).arrAt 15 cfg0.N := by
  unfold Wx; exact Function.update_self _ _ _

theorem Wx_of_ne (c : Dev nD) (b : Ref sig .tc) (hb : b ≠ main_call0_v54) : Wx m c (Proc.devRef .tc b) = V0 m c (Proc.devRef .tc b) := by
  unfold Wx; exact Function.update_of_ne (StableHlo.devRef_ne_of_ne hb) _ _

/-- At entry each window's array holds what the call finds. -/
theorem arrAt_entry (c : Dev nD) (w : Fin cfg0.W) : (dats m 0 c).arrAt w 0 = V m c (Pipeline.arrRef spec0 w) := A_eq m c w

/-- Every window but the last is an input window, and its array is not the output array. -/
theorem input_facts : ∀ w : Fin 16, w ≠ 15 → (win0 w).isOut = false ∧ Pipeline.arrRef spec0 w ≠ main_call0_v54 := by decide

/-- At exit an input window's array holds what the call found, the output's what the write-backs left. -/
theorem arrAt_exit (c : Dev nD) (w : Fin cfg0.W) :
    (dats m 0 c).arrAt w cfg0.N = Wx m c (Proc.devRef .tc (Pipeline.arrRef spec0 w)) := by
  by_cases hw : w = (15 : Fin 16)
  · subst hw; exact (Wx_out m c).symm
  · obtain ⟨hin, hne⟩ := input_facts w hw
    exact (((dats m 0 c).arrAt_in w hin _).trans (A_eq m c w)).trans (Wx_of_ne m c _ hne).symm

/-! ## The host operations after the call -/

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- No window's array is a result buffer of a host operation after the call. -/
theorem arr_ne_results : ∀ w : Fin 16, Pipeline.arrRef spec0 w ≠ main_call0_v55 ∧ Pipeline.arrRef spec0 w ≠ main_call0_v56
    ∧ Pipeline.arrRef spec0 w ≠ main_call0_v57 ∧ Pipeline.arrRef spec0 w ≠ main_v0_0 ∧ Pipeline.arrRef spec0 w ≠ main_v0_1 := by decide

/-- They write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.2.1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.2.2.1
  · intro w; simp only [StableHlo.nullary_writes, StableHlo.unary_writes, StableHlo.binary_writes, StableHlo.ternary_writes, StableHlo.quaternary_writes, StableHlo.reshape_writes, StableHlo.binaryIndexed_writes, Finset.mem_singleton]; exact StableHlo.devRef_ne_of_ne (arr_ne_results w).2.2.2.2

/-! ## The run -/

set_option backward.isDefEq.respectTransparency.types false in
/-- From any memory with zero counters every weakly fair execution of the program terminates, and the final state has
    each window's array at what the pipeline's data computes and every other unscoped buffer at what the later host
    operations leave of the exit contents. -/
theorem run_main : θ_run defs (onTc (τ := τ) (main (F := F))) (s₀ m ρ)
    (Pipeline.SharedFrame.Post cfgs (dats m) 0 (fun c b => StableHlo.after [hostOps1].flatten (Wx m c) (Proc.devRef .tc b))) :=
  Pipeline.SharedFrame.θ_run_frame_around_shared cfgs (dats m) (0 : Fin 1) defs₀ Variants.none
    winFacts₀0 cellOf_inj block_pos0 arr_whole0 stage_whole0 m ρ main
    (hbody := fun c => (body_obligation m c).loose) (howed := fun _ _ => rfl)
    (V₀ := V0 m) (Wx := Wx m) (opss := [hostOps1]) (hsub := sfx_sub) (hfresh := sfx_fresh) (hkeep := sfx_keeps)
    (hmain := hmain m Variants.none)
    (hsplit := fun c => (deal c (V m c)).1.trans (Entails.of_eq (arrays_dealt m c (V m c) _ (arrAt_entry m c)).symm))
    (hjoin₁ := fun c => (Entails.of_eq (arrays_dealt m c (fun b => Wx m c (Proc.devRef .tc b)) _ (arrAt_exit m c))).trans (deal c _).2)
    (hjoin₂ := fun c => (deal c _).1.trans (Entails.of_eq (arrays_dealt m c (fun b => Wx m c (Proc.devRef .tc b)) _ (arrAt_exit m c)).symm))
    (hWx := fun c b hb => Wx_of_ne m c b (fun e => hb 15 e.symm))
    (hin := fun _ => .rfl) (hout := fun _ => .rfl)

/-! ## The frame -/

/-- No host operation before the call writes this argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes this argument. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the call writes this argument, and it is no window's array. -/
theorem W_main_arg0 (c : Dev nD) :
    StableHlo.after [hostOps1].flatten (Wx m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg0 (by decide)]
  exact V_main_arg0 m c
/-- No host operation after the call writes this argument, and it is no window's array. -/
theorem W_main_arg1 (c : Dev nD) :
    StableHlo.after [hostOps1].flatten (Wx m c) (Proc.devRef .tc main_arg1) = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg1 (by decide)]
  exact V_main_arg1 m c
/-- No host operation after the call writes this argument, and it is no window's array. -/
theorem W_main_arg2 (c : Dev nD) :
    StableHlo.after [hostOps1].flatten (Wx m c) (Proc.devRef .tc main_arg2) = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg2 (by decide)]
  exact V_main_arg2 m c
/-- No host operation after the call writes this argument, and it is no window's array. -/
theorem W_main_arg3 (c : Dev nD) :
    StableHlo.after [hostOps1].flatten (Wx m c) (Proc.devRef .tc main_arg3) = m ((c : Thread nD τ).loc main_arg3) := by
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg3 (by decide)]
  exact V_main_arg3 m c
/-- No host operation after the call writes this argument, and it is no window's array. -/
theorem W_main_arg4 (c : Dev nD) :
    StableHlo.after [hostOps1].flatten (Wx m c) (Proc.devRef .tc main_arg4) = m ((c : Thread nD τ).loc main_arg4) := by
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg4 (by decide)]
  exact V_main_arg4 m c
/-- No host operation after the call writes this argument, and it is no window's array. -/
theorem W_main_arg5 (c : Dev nD) :
    StableHlo.after [hostOps1].flatten (Wx m c) (Proc.devRef .tc main_arg5) = m ((c : Thread nD τ).loc main_arg5) := by
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg5 (by decide)]
  exact V_main_arg5 m c
/-- No host operation after the call writes this argument, and it is no window's array. -/
theorem W_main_arg6 (c : Dev nD) :
    StableHlo.after [hostOps1].flatten (Wx m c) (Proc.devRef .tc main_arg6) = m ((c : Thread nD τ).loc main_arg6) := by
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg6 (by decide)]
  exact V_main_arg6 m c
/-- No host operation after the call writes this argument, and it is no window's array. -/
theorem W_main_arg7 (c : Dev nD) :
    StableHlo.after [hostOps1].flatten (Wx m c) (Proc.devRef .tc main_arg7) = m ((c : Thread nD τ).loc main_arg7) := by
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg7 (by decide)]
  exact V_main_arg7 m c
/-- No host operation after the call writes this argument, and it is no window's array. -/
theorem W_main_arg10 (c : Dev nD) :
    StableHlo.after [hostOps1].flatten (Wx m c) (Proc.devRef .tc main_arg10) = m ((c : Thread nD τ).loc main_arg10) := by
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg10 (by decide)]
  exact V_main_arg10 m c
/-- No host operation after the call writes this argument, and it is no window's array. -/
theorem W_main_arg11 (c : Dev nD) :
    StableHlo.after [hostOps1].flatten (Wx m c) (Proc.devRef .tc main_arg11) = m ((c : Thread nD τ).loc main_arg11) := by
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg11 (by decide)]
  exact V_main_arg11 m c
/-- No host operation after the call writes this argument, and it is no window's array. -/
theorem W_main_arg12 (c : Dev nD) :
    StableHlo.after [hostOps1].flatten (Wx m c) (Proc.devRef .tc main_arg12) = m ((c : Thread nD τ).loc main_arg12) := by
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg12 (by decide)]
  exact V_main_arg12 m c
/-- No host operation after the call writes this argument, and it is no window's array. -/
theorem W_main_arg13 (c : Dev nD) :
    StableHlo.after [hostOps1].flatten (Wx m c) (Proc.devRef .tc main_arg13) = m ((c : Thread nD τ).loc main_arg13) := by
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_arg13 (by decide)]
  exact V_main_arg13 m c

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).1 3).trans (((dats m 0 c).arrAt_in 3 rfl _).trans ((A_eq m c 3).trans (V_main_arg8 m c))),
      ((h c).1 6).trans (((dats m 0 c).arrAt_in 6 rfl _).trans ((A_eq m c 6).trans (V_main_arg9 m c))),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c),
      ((h c).2 main_arg13 (Pipeline.mem_restRefs_of main_arg13 (by decide) (by decide))).trans (W_main_arg13 m c)⟩) (run_main m ρ)

end Cert.KernelIdeal.Frame

end
-- ==== Proof.GruSpec.lean ====
/-
  One step of a gated recurrent cell, stated on the extended reals index by index.

  For an input row `x` (length 2176), a previous state `h` (length 2048), weight matrices `wih` (6144 × 2176) and
  `whh` (6144 × 2048) and bias vectors `bih`, `bhh` (length 6144), the three gates of hidden unit `j` read rows
  `j`, `2048 + j` and `4096 + j` of the weights:
    r = σ((wih x + bih)[j] + (whh h + bhh)[j]),
    z = σ((wih x + bih)[2048 + j] + (whh h + bhh)[2048 + j]),
    n = tanh((wih x + bih)[4096 + j] + r · (whh h + bhh)[4096 + j]),
    h'[j] = (1 - z) · n + z · h[j].
  Every operation is the float operation read at the ideal instance, so that a program's term and this one agree
  operation by operation.
-/
import Idealize.ShloMosaic.PureOps.Ideal
import Idealize.ShloMosaic.Lib.ValueIdx

noncomputable section

namespace Cert.GruSpec

open Idealize.ShloMosaic

/-- A float of the ideal instance: an extended real. -/
abbrev R : Type := Ideal .f32

/-- One row of an affine map: the dot product of `x` with the row `w`, plus the bias `b`. -/
def gateSum {K : Nat} (x : Fin K → R) (w : Fin K → R) (b : R) : R :=
  FloatOps.addf (∑ k : Fin K, x k * w k) b

/-- The cell's arithmetic from the six gate pre-activations and the previous state's entry. -/
def cell (ir iz inn hr hz hn hp : R) : R :=
  FloatOps.addf
    (FloatOps.mulf
      (FloatOps.subf (Scalar.ofBits .f32 0x3F800000#32) (FloatOps.logistic (FloatOps.addf iz hz)))
      (FloatOps.tanh (FloatOps.addf inn (FloatOps.mulf (FloatOps.logistic (FloatOps.addf ir hr)) hn))))
    (FloatOps.mulf (FloatOps.logistic (FloatOps.addf iz hz)) hp)

/-- Row `g * 2048 + j` of a stacked weight: gate `g` of hidden unit `j`. -/
def row (g : Fin 3) (j : Fin 2048) : Fin 6144 := ⟨g.val * 2048 + j.val, by have := g.isLt; have := j.isLt; omega⟩

/-- The new state's entry `j`. -/
def hnew (x : Fin 2176 → R) (h : Fin 2048 → R) (wih : Fin 6144 → Fin 2176 → R) (whh : Fin 6144 → Fin 2048 → R)
    (bih bhh : Fin 6144 → R) (j : Fin 2048) : R :=
  cell (gateSum x (wih (row 0 j)) (bih (row 0 j))) (gateSum x (wih (row 1 j)) (bih (row 1 j)))
    (gateSum x (wih (row 2 j)) (bih (row 2 j)))
    (gateSum h (whh (row 0 j)) (bhh (row 0 j))) (gateSum h (whh (row 1 j)) (bhh (row 1 j)))
    (gateSum h (whh (row 2 j)) (bhh (row 2 j))) (h j)

end Cert.GruSpec

end
-- ==== Proof.KernelBlocks.lean ====
/-
  The arrays the kernel's call finds, by coordinates, and each input block of each grid point read in them.

  Point `t` of the grid covers hidden units `128 t … 128 t + 127`. Its input blocks are: the whole input row and the
  whole previous state; lanes `128 t …` of the previous state; rows `128 t …`, `2048 + 128 t …` and `4096 + 128 t …`
  of each weight matrix and the same lanes of each bias row.
-/
import proofs.«166798_j28432683500169_2_alg».proof.Proof.KernelIdealBody
import proofs.«166798_j28432683500169_2_alg».proof.Proof.GruSpec
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the call finds, by coordinates -/

def Xrow (c : Dev nD) : Fin 2176 → Cert.GruSpec.R := fun k => (V m c main_call0_v51 : S1x2176.Idx → Elt Ideal .f32) (ix2 0 k)
def Hrow (c : Dev nD) : Fin 2048 → Cert.GruSpec.R := fun k => (V m c main_call0_v0 : S1x2048.Idx → Elt Ideal .f32) (ix2 0 k)
def Wih (c : Dev nD) : Fin 6144 → Fin 2176 → Cert.GruSpec.R := fun r k => (V m c main_arg8 : S6144x2176.Idx → Elt Ideal .f32) (ix2 r k)
def Whh (c : Dev nD) : Fin 6144 → Fin 2048 → Cert.GruSpec.R := fun r k => (V m c main_arg9 : S6144x2048.Idx → Elt Ideal .f32) (ix2 r k)
def Bih (c : Dev nD) : Fin 6144 → Cert.GruSpec.R := fun r => (V m c main_call0_v52 : S1x6144.Idx → Elt Ideal .f32) (ix2 0 r)
def Bhh (c : Dev nD) : Fin 6144 → Cert.GruSpec.R := fun r => (V m c main_call0_v53 : S1x6144.Idx → Elt Ideal .f32) (ix2 0 r)

/-- The new state as one function of the arrays the call finds. -/
def Hnew (c : Dev nD) : S1x2048.Idx → Elt Ideal .f32 := fun j =>
  Cert.GruSpec.hnew (Xrow m c) (Hrow m c) (Wih m c) (Whh m c) (Bih m c) (Bhh m c) (j 1)

/-! ## The windows' block indices over the grid -/

theorem idx0 (t : Fin cfg0.N) : win0_0.index t (0 : Fin 2) = 0 ∧ win0_0.index t (1 : Fin 2) = 0 :=
  (by decide +kernel : ∀ t : Fin grid0.N, win0_0.index t (0 : Fin 2) = 0 ∧ win0_0.index t (1 : Fin 2) = 0) t
theorem idx1 (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem idx2 (t : Fin cfg0.N) : win0_2.index t (0 : Fin 2) = 0 ∧ win0_2.index t (1 : Fin 2) = t.val :=
  (by decide +kernel : ∀ t : Fin grid0.N, win0_2.index t (0 : Fin 2) = 0 ∧ win0_2.index t (1 : Fin 2) = t.val) t
theorem idx3 (t : Fin cfg0.N) : win0_3.index t (0 : Fin 2) = t.val ∧ win0_3.index t (1 : Fin 2) = 0 :=
  (by decide +kernel : ∀ t : Fin grid0.N, win0_3.index t (0 : Fin 2) = t.val ∧ win0_3.index t (1 : Fin 2) = 0) t
theorem idx4 (t : Fin cfg0.N) : win0_4.index t (0 : Fin 2) = 16 + t.val ∧ win0_4.index t (1 : Fin 2) = 0 :=
  (by decide +kernel : ∀ t : Fin grid0.N, win0_4.index t (0 : Fin 2) = 16 + t.val ∧ win0_4.index t (1 : Fin 2) = 0) t
theorem idx5 (t : Fin cfg0.N) : win0_5.index t (0 : Fin 2) = 32 + t.val ∧ win0_5.index t (1 : Fin 2) = 0 :=
  (by decide +kernel : ∀ t : Fin grid0.N, win0_5.index t (0 : Fin 2) = 32 + t.val ∧ win0_5.index t (1 : Fin 2) = 0) t
theorem idx6 (t : Fin cfg0.N) : win0_6.index t (0 : Fin 2) = t.val ∧ win0_6.index t (1 : Fin 2) = 0 :=
  (by decide +kernel : ∀ t : Fin grid0.N, win0_6.index t (0 : Fin 2) = t.val ∧ win0_6.index t (1 : Fin 2) = 0) t
theorem idx7 (t : Fin cfg0.N) : win0_7.index t (0 : Fin 2) = 16 + t.val ∧ win0_7.index t (1 : Fin 2) = 0 :=
  (by decide +kernel : ∀ t : Fin grid0.N, win0_7.index t (0 : Fin 2) = 16 + t.val ∧ win0_7.index t (1 : Fin 2) = 0) t
theorem idx8 (t : Fin cfg0.N) : win0_8.index t (0 : Fin 2) = 32 + t.val ∧ win0_8.index t (1 : Fin 2) = 0 :=
  (by decide +kernel : ∀ t : Fin grid0.N, win0_8.index t (0 : Fin 2) = 32 + t.val ∧ win0_8.index t (1 : Fin 2) = 0) t
theorem idx9 (t : Fin cfg0.N) : win0_9.index t (0 : Fin 2) = 0 ∧ win0_9.index t (1 : Fin 2) = t.val :=
  (by decide +kernel : ∀ t : Fin grid0.N, win0_9.index t (0 : Fin 2) = 0 ∧ win0_9.index t (1 : Fin 2) = t.val) t
theorem idx10 (t : Fin cfg0.N) : win0_10.index t (0 : Fin 2) = 0 ∧ win0_10.index t (1 : Fin 2) = 16 + t.val :=
  (by decide +kernel : ∀ t : Fin grid0.N, win0_10.index t (0 : Fin 2) = 0 ∧ win0_10.index t (1 : Fin 2) = 16 + t.val) t
theorem idx11 (t : Fin cfg0.N) : win0_11.index t (0 : Fin 2) = 0 ∧ win0_11.index t (1 : Fin 2) = 32 + t.val :=
  (by decide +kernel : ∀ t : Fin grid0.N, win0_11.index t (0 : Fin 2) = 0 ∧ win0_11.index t (1 : Fin 2) = 32 + t.val) t
theorem idx12 (t : Fin cfg0.N) : win0_12.index t (0 : Fin 2) = 0 ∧ win0_12.index t (1 : Fin 2) = t.val :=
  (by decide +kernel : ∀ t : Fin grid0.N, win0_12.index t (0 : Fin 2) = 0 ∧ win0_12.index t (1 : Fin 2) = t.val) t
theorem idx13 (t : Fin cfg0.N) : win0_13.index t (0 : Fin 2) = 0 ∧ win0_13.index t (1 : Fin 2) = 16 + t.val :=
  (by decide +kernel : ∀ t : Fin grid0.N, win0_13.index t (0 : Fin 2) = 0 ∧ win0_13.index t (1 : Fin 2) = 16 + t.val) t
theorem idx14 (t : Fin cfg0.N) : win0_14.index t (0 : Fin 2) = 0 ∧ win0_14.index t (1 : Fin 2) = 32 + t.val :=
  (by decide +kernel : ∀ t : Fin grid0.N, win0_14.index t (0 : Fin 2) = 0 ∧ win0_14.index t (1 : Fin 2) = 32 + t.val) t
theorem idx15 (t : Fin cfg0.N) : win0_15.index t (0 : Fin 2) = 0 ∧ win0_15.index t (1 : Fin 2) = t.val :=
  (by decide +kernel : ∀ t : Fin grid0.N, win0_15.index t (0 : Fin 2) = 0 ∧ win0_15.index t (1 : Fin 2) = t.val) t

/-! ## Each input block read at coordinates -/

/-- Window 0's block at point `t`, entry `(a, b)`, is its array's entry at the block's offset plus `(a, b)`. -/
theorem blk0_apply (c : Dev nD) (t : Fin cfg0.N) (a : Fin 1) (b : Fin 2176) (A : Fin 1) (B : Fin 2176)
    (hA : A.val = (0) * 1 + a.val) (hB : B.val = (0) * 2176 + b.val) :
    (iblk m c 0 t : Vec Ideal S1x2176 .f32) (ix2 a b) = (V m c main_call0_v51 : S1x2176.Idx → Elt Ideal .f32) (ix2 A B) := by
  obtain ⟨e0, e1⟩ := idx0 t
  unfold iblk
  rw [View.read_apply]
  show V m c main_call0_v51 _ = V m c main_call0_v51 _
  congr 1
  funext d
  apply Fin.ext
  match d with
  | ⟨0, _⟩ => show win0_0.index t (0 : Fin 2) * 1 + 1 * a.val = A.val; rw [e0, hA]; omega
  | ⟨1, _⟩ => show win0_0.index t (1 : Fin 2) * 2176 + 1 * b.val = B.val; rw [e1, hB]; omega

/-- Window 1's block at point `t`, entry `(a, b)`, is its array's entry at the block's offset plus `(a, b)`. -/
theorem blk1_apply (c : Dev nD) (t : Fin cfg0.N) (a : Fin 1) (b : Fin 2048) (A : Fin 1) (B : Fin 2048)
    (hA : A.val = (0) * 1 + a.val) (hB : B.val = (0) * 2048 + b.val) :
    (iblk m c 1 t : Vec Ideal S1x2048 .f32) (ix2 a b) = (V m c main_call0_v0 : S1x2048.Idx → Elt Ideal .f32) (ix2 A B) := by
  obtain ⟨e0, e1⟩ := idx1 t
  unfold iblk
  rw [View.read_apply]
  show V m c main_call0_v0 _ = V m c main_call0_v0 _
  congr 1
  funext d
  apply Fin.ext
  match d with
  | ⟨0, _⟩ => show win0_1.index t (0 : Fin 2) * 1 + 1 * a.val = A.val; rw [e0, hA]; omega
  | ⟨1, _⟩ => show win0_1.index t (1 : Fin 2) * 2048 + 1 * b.val = B.val; rw [e1, hB]; omega

/-- Window 2's block at point `t`, entry `(a, b)`, is its array's entry at the block's offset plus `(a, b)`. -/
theorem blk2_apply (c : Dev nD) (t : Fin cfg0.N) (a : Fin 1) (b : Fin 128) (A : Fin 1) (B : Fin 2048)
    (hA : A.val = (0) * 1 + a.val) (hB : B.val = (t.val) * 128 + b.val) :
    (iblk m c 2 t : Vec Ideal S1x128 .f32) (ix2 a b) = (V m c main_call0_v0 : S1x2048.Idx → Elt Ideal .f32) (ix2 A B) := by
  obtain ⟨e0, e1⟩ := idx2 t
  unfold iblk
  rw [View.read_apply]
  show V m c main_call0_v0 _ = V m c main_call0_v0 _
  congr 1
  funext d
  apply Fin.ext
  match d with
  | ⟨0, _⟩ => show win0_2.index t (0 : Fin 2) * 1 + 1 * a.val = A.val; rw [e0, hA]; omega
  | ⟨1, _⟩ => show win0_2.index t (1 : Fin 2) * 128 + 1 * b.val = B.val; rw [e1, hB]; omega

/-- Window 3's block at point `t`, entry `(a, b)`, is its array's entry at the block's offset plus `(a, b)`. -/
theorem blk3_apply (c : Dev nD) (t : Fin cfg0.N) (a : Fin 128) (b : Fin 2176) (A : Fin 6144) (B : Fin 2176)
    (hA : A.val = (t.val) * 128 + a.val) (hB : B.val = (0) * 2176 + b.val) :
    (iblk m c 3 t : Vec Ideal S128x2176 .f32) (ix2 a b) = (V m c main_arg8 : S6144x2176.Idx → Elt Ideal .f32) (ix2 A B) := by
  obtain ⟨e0, e1⟩ := idx3 t
  unfold iblk
  rw [View.read_apply]
  show V m c main_arg8 _ = V m c main_arg8 _
  congr 1
  funext d
  apply Fin.ext
  match d with
  | ⟨0, _⟩ => show win0_3.index t (0 : Fin 2) * 128 + 1 * a.val = A.val; rw [e0, hA]; omega
  | ⟨1, _⟩ => show win0_3.index t (1 : Fin 2) * 2176 + 1 * b.val = B.val; rw [e1, hB]; omega

/-- Window 4's block at point `t`, entry `(a, b)`, is its array's entry at the block's offset plus `(a, b)`. -/
theorem blk4_apply (c : Dev nD) (t : Fin cfg0.N) (a : Fin 128) (b : Fin 2176) (A : Fin 6144) (B : Fin 2176)
    (hA : A.val = (16 + t.val) * 128 + a.val) (hB : B.val = (0) * 2176 + b.val) :
    (iblk m c 4 t : Vec Ideal S128x2176 .f32) (ix2 a b) = (V m c main_arg8 : S6144x2176.Idx → Elt Ideal .f32) (ix2 A B) := by
  obtain ⟨e0, e1⟩ := idx4 t
  unfold iblk
  rw [View.read_apply]
  show V m c main_arg8 _ = V m c main_arg8 _
  congr 1
  funext d
  apply Fin.ext
  match d with
  | ⟨0, _⟩ => show win0_4.index t (0 : Fin 2) * 128 + 1 * a.val = A.val; rw [e0, hA]; omega
  | ⟨1, _⟩ => show win0_4.index t (1 : Fin 2) * 2176 + 1 * b.val = B.val; rw [e1, hB]; omega

/-- Window 5's block at point `t`, entry `(a, b)`, is its array's entry at the block's offset plus `(a, b)`. -/
theorem blk5_apply (c : Dev nD) (t : Fin cfg0.N) (a : Fin 128) (b : Fin 2176) (A : Fin 6144) (B : Fin 2176)
    (hA : A.val = (32 + t.val) * 128 + a.val) (hB : B.val = (0) * 2176 + b.val) :
    (iblk m c 5 t : Vec Ideal S128x2176 .f32) (ix2 a b) = (V m c main_arg8 : S6144x2176.Idx → Elt Ideal .f32) (ix2 A B) := by
  obtain ⟨e0, e1⟩ := idx5 t
  unfold iblk
  rw [View.read_apply]
  show V m c main_arg8 _ = V m c main_arg8 _
  congr 1
  funext d
  apply Fin.ext
  match d with
  | ⟨0, _⟩ => show win0_5.index t (0 : Fin 2) * 128 + 1 * a.val = A.val; rw [e0, hA]; omega
  | ⟨1, _⟩ => show win0_5.index t (1 : Fin 2) * 2176 + 1 * b.val = B.val; rw [e1, hB]; omega

/-- Window 6's block at point `t`, entry `(a, b)`, is its array's entry at the block's offset plus `(a, b)`. -/
theorem blk6_apply (c : Dev nD) (t : Fin cfg0.N) (a : Fin 128) (b : Fin 2048) (A : Fin 6144) (B : Fin 2048)
    (hA : A.val = (t.val) * 128 + a.val) (hB : B.val = (0) * 2048 + b.val) :
    (iblk m c 6 t : Vec Ideal S128x2048 .f32) (ix2 a b) = (V m c main_arg9 : S6144x2048.Idx → Elt Ideal .f32) (ix2 A B) := by
  obtain ⟨e0, e1⟩ := idx6 t
  unfold iblk
  rw [View.read_apply]
  show V m c main_arg9 _ = V m c main_arg9 _
  congr 1
  funext d
  apply Fin.ext
  match d with
  | ⟨0, _⟩ => show win0_6.index t (0 : Fin 2) * 128 + 1 * a.val = A.val; rw [e0, hA]; omega
  | ⟨1, _⟩ => show win0_6.index t (1 : Fin 2) * 2048 + 1 * b.val = B.val; rw [e1, hB]; omega

/-- Window 7's block at point `t`, entry `(a, b)`, is its array's entry at the block's offset plus `(a, b)`. -/
theorem blk7_apply (c : Dev nD) (t : Fin cfg0.N) (a : Fin 128) (b : Fin 2048) (A : Fin 6144) (B : Fin 2048)
    (hA : A.val = (16 + t.val) * 128 + a.val) (hB : B.val = (0) * 2048 + b.val) :
    (iblk m c 7 t : Vec Ideal S128x2048 .f32) (ix2 a b) = (V m c main_arg9 : S6144x2048.Idx → Elt Ideal .f32) (ix2 A B) := by
  obtain ⟨e0, e1⟩ := idx7 t
  unfold iblk
  rw [View.read_apply]
  show V m c main_arg9 _ = V m c main_arg9 _
  congr 1
  funext d
  apply Fin.ext
  match d with
  | ⟨0, _⟩ => show win0_7.index t (0 : Fin 2) * 128 + 1 * a.val = A.val; rw [e0, hA]; omega
  | ⟨1, _⟩ => show win0_7.index t (1 : Fin 2) * 2048 + 1 * b.val = B.val; rw [e1, hB]; omega

/-- Window 8's block at point `t`, entry `(a, b)`, is its array's entry at the block's offset plus `(a, b)`. -/
theorem blk8_apply (c : Dev nD) (t : Fin cfg0.N) (a : Fin 128) (b : Fin 2048) (A : Fin 6144) (B : Fin 2048)
    (hA : A.val = (32 + t.val) * 128 + a.val) (hB : B.val = (0) * 2048 + b.val) :
    (iblk m c 8 t : Vec Ideal S128x2048 .f32) (ix2 a b) = (V m c main_arg9 : S6144x2048.Idx → Elt Ideal .f32) (ix2 A B) := by
  obtain ⟨e0, e1⟩ := idx8 t
  unfold iblk
  rw [View.read_apply]
  show V m c main_arg9 _ = V m c main_arg9 _
  congr 1
  funext d
  apply Fin.ext
  match d with
  | ⟨0, _⟩ => show win0_8.index t (0 : Fin 2) * 128 + 1 * a.val = A.val; rw [e0, hA]; omega
  | ⟨1, _⟩ => show win0_8.index t (1 : Fin 2) * 2048 + 1 * b.val = B.val; rw [e1, hB]; omega

/-- Window 9's block at point `t`, entry `(a, b)`, is its array's entry at the block's offset plus `(a, b)`. -/
theorem blk9_apply (c : Dev nD) (t : Fin cfg0.N) (a : Fin 1) (b : Fin 128) (A : Fin 1) (B : Fin 6144)
    (hA : A.val = (0) * 1 + a.val) (hB : B.val = (t.val) * 128 + b.val) :
    (iblk m c 9 t : Vec Ideal S1x128 .f32) (ix2 a b) = (V m c main_call0_v52 : S1x6144.Idx → Elt Ideal .f32) (ix2 A B) := by
  obtain ⟨e0, e1⟩ := idx9 t
  unfold iblk
  rw [View.read_apply]
  show V m c main_call0_v52 _ = V m c main_call0_v52 _
  congr 1
  funext d
  apply Fin.ext
  match d with
  | ⟨0, _⟩ => show win0_9.index t (0 : Fin 2) * 1 + 1 * a.val = A.val; rw [e0, hA]; omega
  | ⟨1, _⟩ => show win0_9.index t (1 : Fin 2) * 128 + 1 * b.val = B.val; rw [e1, hB]; omega

/-- Window 10's block at point `t`, entry `(a, b)`, is its array's entry at the block's offset plus `(a, b)`. -/
theorem blk10_apply (c : Dev nD) (t : Fin cfg0.N) (a : Fin 1) (b : Fin 128) (A : Fin 1) (B : Fin 6144)
    (hA : A.val = (0) * 1 + a.val) (hB : B.val = (16 + t.val) * 128 + b.val) :
    (iblk m c 10 t : Vec Ideal S1x128 .f32) (ix2 a b) = (V m c main_call0_v52 : S1x6144.Idx → Elt Ideal .f32) (ix2 A B) := by
  obtain ⟨e0, e1⟩ := idx10 t
  unfold iblk
  rw [View.read_apply]
  show V m c main_call0_v52 _ = V m c main_call0_v52 _
  congr 1
  funext d
  apply Fin.ext
  match d with
  | ⟨0, _⟩ => show win0_10.index t (0 : Fin 2) * 1 + 1 * a.val = A.val; rw [e0, hA]; omega
  | ⟨1, _⟩ => show win0_10.index t (1 : Fin 2) * 128 + 1 * b.val = B.val; rw [e1, hB]; omega

/-- Window 11's block at point `t`, entry `(a, b)`, is its array's entry at the block's offset plus `(a, b)`. -/
theorem blk11_apply (c : Dev nD) (t : Fin cfg0.N) (a : Fin 1) (b : Fin 128) (A : Fin 1) (B : Fin 6144)
    (hA : A.val = (0) * 1 + a.val) (hB : B.val = (32 + t.val) * 128 + b.val) :
    (iblk m c 11 t : Vec Ideal S1x128 .f32) (ix2 a b) = (V m c main_call0_v52 : S1x6144.Idx → Elt Ideal .f32) (ix2 A B) := by
  obtain ⟨e0, e1⟩ := idx11 t
  unfold iblk
  rw [View.read_apply]
  show V m c main_call0_v52 _ = V m c main_call0_v52 _
  congr 1
  funext d
  apply Fin.ext
  match d with
  | ⟨0, _⟩ => show win0_11.index t (0 : Fin 2) * 1 + 1 * a.val = A.val; rw [e0, hA]; omega
  | ⟨1, _⟩ => show win0_11.index t (1 : Fin 2) * 128 + 1 * b.val = B.val; rw [e1, hB]; omega

/-- Window 12's block at point `t`, entry `(a, b)`, is its array's entry at the block's offset plus `(a, b)`. -/
theorem blk12_apply (c : Dev nD) (t : Fin cfg0.N) (a : Fin 1) (b : Fin 128) (A : Fin 1) (B : Fin 6144)
    (hA : A.val = (0) * 1 + a.val) (hB : B.val = (t.val) * 128 + b.val) :
    (iblk m c 12 t : Vec Ideal S1x128 .f32) (ix2 a b) = (V m c main_call0_v53 : S1x6144.Idx → Elt Ideal .f32) (ix2 A B) := by
  obtain ⟨e0, e1⟩ := idx12 t
  unfold iblk
  rw [View.read_apply]
  show V m c main_call0_v53 _ = V m c main_call0_v53 _
  congr 1
  funext d
  apply Fin.ext
  match d with
  | ⟨0, _⟩ => show win0_12.index t (0 : Fin 2) * 1 + 1 * a.val = A.val; rw [e0, hA]; omega
  | ⟨1, _⟩ => show win0_12.index t (1 : Fin 2) * 128 + 1 * b.val = B.val; rw [e1, hB]; omega

/-- Window 13's block at point `t`, entry `(a, b)`, is its array's entry at the block's offset plus `(a, b)`. -/
theorem blk13_apply (c : Dev nD) (t : Fin cfg0.N) (a : Fin 1) (b : Fin 128) (A : Fin 1) (B : Fin 6144)
    (hA : A.val = (0) * 1 + a.val) (hB : B.val = (16 + t.val) * 128 + b.val) :
    (iblk m c 13 t : Vec Ideal S1x128 .f32) (ix2 a b) = (V m c main_call0_v53 : S1x6144.Idx → Elt Ideal .f32) (ix2 A B) := by
  obtain ⟨e0, e1⟩ := idx13 t
  unfold iblk
  rw [View.read_apply]
  show V m c main_call0_v53 _ = V m c main_call0_v53 _
  congr 1
  funext d
  apply Fin.ext
  match d with
  | ⟨0, _⟩ => show win0_13.index t (0 : Fin 2) * 1 + 1 * a.val = A.val; rw [e0, hA]; omega
  | ⟨1, _⟩ => show win0_13.index t (1 : Fin 2) * 128 + 1 * b.val = B.val; rw [e1, hB]; omega

/-- Window 14's block at point `t`, entry `(a, b)`, is its array's entry at the block's offset plus `(a, b)`. -/
theorem blk14_apply (c : Dev nD) (t : Fin cfg0.N) (a : Fin 1) (b : Fin 128) (A : Fin 1) (B : Fin 6144)
    (hA : A.val = (0) * 1 + a.val) (hB : B.val = (32 + t.val) * 128 + b.val) :
    (iblk m c 14 t : Vec Ideal S1x128 .f32) (ix2 a b) = (V m c main_call0_v53 : S1x6144.Idx → Elt Ideal .f32) (ix2 A B) := by
  obtain ⟨e0, e1⟩ := idx14 t
  unfold iblk
  rw [View.read_apply]
  show V m c main_call0_v53 _ = V m c main_call0_v53 _
  congr 1
  funext d
  apply Fin.ext
  match d with
  | ⟨0, _⟩ => show win0_14.index t (0 : Fin 2) * 1 + 1 * a.val = A.val; rw [e0, hA]; omega
  | ⟨1, _⟩ => show win0_14.index t (1 : Fin 2) * 128 + 1 * b.val = B.val; rw [e1, hB]; omega

/-- Hidden unit `128 t + q`. -/
def unit (t : Fin cfg0.N) (q : Fin 128) : Fin 2048 := ⟨t.val * 128 + q.val, by have h : t.val < cfg0.N := t.isLt; have hN : cfg0.N = 16 := N_0; have := q.isLt; omega⟩

end Cert.KernelIdeal.Frame

end
-- ==== Proof.KernelCell.lean ====
/-
  The arithmetic of one block of the gated recurrent cell, read at a lane.

  The block's stored vector is built from nine intermediate vectors: six affine rows (three of the input row against
  blocks of the input weights, three of the previous state against blocks of the hidden weights), each a matrix product
  into a zero accumulator plus a bias row, followed by the pointwise gate arithmetic. Read at lane `q` each product is a
  dot product over the contracted axis, and the whole is the specification's `cell` of six `gateSum`s.
-/
import proofs.«166798_j28432683500169_2_alg».proof.Proof.Gen.KernelIdeal.Skeleton
import proofs.«166798_j28432683500169_2_alg».proof.Proof.GruSpec
import Idealize.ShloMosaic.Lib.ValueIdx
import Idealize.ShloMosaic.Lib.Pipeline.Value
import Idealize.ShloMosaic.PureOps.Ideal.Laws

noncomputable section

namespace Cert.KernelCell

open Cert.KernelIdeal Cert.KernelIdeal.Gen Idealize.ShloMosaic ValueIdx
open scoped BigOperators

/-! ## The two matrix products at an entry -/

/-! ### The input row (length 2176) against a 128-row block of the input weights -/

/-- The left operand's row coordinate is the output's row coordinate. -/
theorem lhs_x_0 (i : S1x128.Idx) (c : dot_S1x2176_S128x2176_S1x128_1_1_0_0_n_n.contr.Idx) :
    (dot_S1x2176_S128x2176_S1x128_1_1_0_0_n_n.lhsIdx i c 0).val = (i 0).val := by
  unfold DotDims.lhsIdx
  rw [dif_neg (show ¬(0 : Fin S1x2176.rank) ∈ dot_S1x2176_S128x2176_S1x128_1_1_0_0_n_n.lhsBatch by decide), dif_pos (show (0 : Fin S1x2176.rank) ∈ dot_S1x2176_S128x2176_S1x128_1_1_0_0_n_n.lhsNonContracting by decide)]
  rfl
/-- The left operand's column coordinate is the contraction position. -/
theorem lhs_x_1 (i : S1x128.Idx) (c : dot_S1x2176_S128x2176_S1x128_1_1_0_0_n_n.contr.Idx) :
    (dot_S1x2176_S128x2176_S1x128_1_1_0_0_n_n.lhsIdx i c 1).val = (c ⟨0, by decide⟩).val :=
  dot_S1x2176_S128x2176_S1x128_1_1_0_0_n_n.lhsIdx_val_of_single rfl i c
/-- The right operand's row coordinate is the output's column coordinate. -/
theorem rhs_x_0 (i : S1x128.Idx) (c : dot_S1x2176_S128x2176_S1x128_1_1_0_0_n_n.contr.Idx) :
    (dot_S1x2176_S128x2176_S1x128_1_1_0_0_n_n.rhsIdx i c 0).val = (i 1).val := by
  unfold DotDims.rhsIdx
  rw [dif_neg (show ¬(0 : Fin S128x2176.rank) ∈ dot_S1x2176_S128x2176_S1x128_1_1_0_0_n_n.rhsBatch by decide), dif_pos (show (0 : Fin S128x2176.rank) ∈ dot_S1x2176_S128x2176_S1x128_1_1_0_0_n_n.rhsNonContracting by decide)]
  rfl
/-- The right operand's column coordinate is the contraction position. -/
theorem rhs_x_1 (i : S1x128.Idx) (c : dot_S1x2176_S128x2176_S1x128_1_1_0_0_n_n.contr.Idx) :
    (dot_S1x2176_S128x2176_S1x128_1_1_0_0_n_n.rhsIdx i c 1).val = (c ⟨0, by decide⟩).val :=
  dot_S1x2176_S128x2176_S1x128_1_1_0_0_n_n.rhsIdx_val_of_single rfl i c

/-- Entry `(0, q)` of the product into the zero accumulator is the dot product of the row vector with row `q` of the
    matrix: both operands are contracted along their second axis. -/
theorem matmul_x_apply (x : FVec Ideal S1x2176 .f32) (w : FVec Ideal S128x2176 .f32) (q : Fin 128) :
    matmul (F := Ideal) dot_S1x2176_S128x2176_S1x128_1_1_0_0_n_n none x w (constant (F := Ideal) S1x128 .f32 0x00000000#32) (ix2 0 q)
      = ∑ k : Fin 2176, x (ix2 0 k) * w (ix2 q k) := by
  refine (Ideal.matmul_constant_zero_apply dot_S1x2176_S128x2176_S1x128_1_1_0_0_n_n none x w (ix2 0 q)).trans ?_
  rw [← Equiv.sum_comp (ValueIdx.contrEquiv1 dot_S1x2176_S128x2176_S1x128_1_1_0_0_n_n 2176 rfl rfl).symm]
  refine Finset.sum_congr rfl fun k _ => ?_
  have hk := ValueIdx.contrEquiv1_symm_val dot_S1x2176_S128x2176_S1x128_1_1_0_0_n_n 2176 rfl rfl k
  have el : dot_S1x2176_S128x2176_S1x128_1_1_0_0_n_n.lhsIdx (ix2 0 q) ((ValueIdx.contrEquiv1 dot_S1x2176_S128x2176_S1x128_1_1_0_0_n_n 2176 rfl rfl).symm k) = ix2 0 k := funext fun a => Fin.ext (by
    match a with
    | ⟨0, _⟩ => exact lhs_x_0 _ _
    | ⟨1, _⟩ => exact (lhs_x_1 _ _).trans hk)
  have er : dot_S1x2176_S128x2176_S1x128_1_1_0_0_n_n.rhsIdx (ix2 0 q) ((ValueIdx.contrEquiv1 dot_S1x2176_S128x2176_S1x128_1_1_0_0_n_n 2176 rfl rfl).symm k) = ix2 q k := funext fun a => Fin.ext (by
    match a with
    | ⟨0, _⟩ => exact rhs_x_0 _ _
    | ⟨1, _⟩ => exact (rhs_x_1 _ _).trans hk)
  rw [el, er]

/-! ### The previous state (length 2048) against a 128-row block of the hidden weights -/

/-- The left operand's row coordinate is the output's row coordinate. -/
theorem lhs_h_0 (i : S1x128.Idx) (c : dot_S1x2048_S128x2048_S1x128_1_1_0_0_n_n.contr.Idx) :
    (dot_S1x2048_S128x2048_S1x128_1_1_0_0_n_n.lhsIdx i c 0).val = (i 0).val := by
  unfold DotDims.lhsIdx
  rw [dif_neg (show ¬(0 : Fin S1x2048.rank) ∈ dot_S1x2048_S128x2048_S1x128_1_1_0_0_n_n.lhsBatch by decide), dif_pos (show (0 : Fin S1x2048.rank) ∈ dot_S1x2048_S128x2048_S1x128_1_1_0_0_n_n.lhsNonContracting by decide)]
  rfl
/-- The left operand's column coordinate is the contraction position. -/
theorem lhs_h_1 (i : S1x128.Idx) (c : dot_S1x2048_S128x2048_S1x128_1_1_0_0_n_n.contr.Idx) :
    (dot_S1x2048_S128x2048_S1x128_1_1_0_0_n_n.lhsIdx i c 1).val = (c ⟨0, by decide⟩).val :=
  dot_S1x2048_S128x2048_S1x128_1_1_0_0_n_n.lhsIdx_val_of_single rfl i c
/-- The right operand's row coordinate is the output's column coordinate. -/
theorem rhs_h_0 (i : S1x128.Idx) (c : dot_S1x2048_S128x2048_S1x128_1_1_0_0_n_n.contr.Idx) :
    (dot_S1x2048_S128x2048_S1x128_1_1_0_0_n_n.rhsIdx i c 0).val = (i 1).val := by
  unfold DotDims.rhsIdx
  rw [dif_neg (show ¬(0 : Fin S128x2048.rank) ∈ dot_S1x2048_S128x2048_S1x128_1_1_0_0_n_n.rhsBatch by decide), dif_pos (show (0 : Fin S128x2048.rank) ∈ dot_S1x2048_S128x2048_S1x128_1_1_0_0_n_n.rhsNonContracting by decide)]
  rfl
/-- The right operand's column coordinate is the contraction position. -/
theorem rhs_h_1 (i : S1x128.Idx) (c : dot_S1x2048_S128x2048_S1x128_1_1_0_0_n_n.contr.Idx) :
    (dot_S1x2048_S128x2048_S1x128_1_1_0_0_n_n.rhsIdx i c 1).val = (c ⟨0, by decide⟩).val :=
  dot_S1x2048_S128x2048_S1x128_1_1_0_0_n_n.rhsIdx_val_of_single rfl i c

/-- Entry `(0, q)` of the product into the zero accumulator is the dot product of the row vector with row `q` of the
    matrix: both operands are contracted along their second axis. -/
theorem matmul_h_apply (x : FVec Ideal S1x2048 .f32) (w : FVec Ideal S128x2048 .f32) (q : Fin 128) :
    matmul (F := Ideal) dot_S1x2048_S128x2048_S1x128_1_1_0_0_n_n none x w (constant (F := Ideal) S1x128 .f32 0x00000000#32) (ix2 0 q)
      = ∑ k : Fin 2048, x (ix2 0 k) * w (ix2 q k) := by
  refine (Ideal.matmul_constant_zero_apply dot_S1x2048_S128x2048_S1x128_1_1_0_0_n_n none x w (ix2 0 q)).trans ?_
  rw [← Equiv.sum_comp (ValueIdx.contrEquiv1 dot_S1x2048_S128x2048_S1x128_1_1_0_0_n_n 2048 rfl rfl).symm]
  refine Finset.sum_congr rfl fun k _ => ?_
  have hk := ValueIdx.contrEquiv1_symm_val dot_S1x2048_S128x2048_S1x128_1_1_0_0_n_n 2048 rfl rfl k
  have el : dot_S1x2048_S128x2048_S1x128_1_1_0_0_n_n.lhsIdx (ix2 0 q) ((ValueIdx.contrEquiv1 dot_S1x2048_S128x2048_S1x128_1_1_0_0_n_n 2048 rfl rfl).symm k) = ix2 0 k := funext fun a => Fin.ext (by
    match a with
    | ⟨0, _⟩ => exact lhs_h_0 _ _
    | ⟨1, _⟩ => exact (lhs_h_1 _ _).trans hk)
  have er : dot_S1x2048_S128x2048_S1x128_1_1_0_0_n_n.rhsIdx (ix2 0 q) ((ValueIdx.contrEquiv1 dot_S1x2048_S128x2048_S1x128_1_1_0_0_n_n 2048 rfl rfl).symm k) = ix2 q k := funext fun a => Fin.ext (by
    match a with
    | ⟨0, _⟩ => exact rhs_h_0 _ _
    | ⟨1, _⟩ => exact (rhs_h_1 _ _).trans hk)
  rw [el, er]

/-! ## The reshapes to the same shape -/

/-- A reshape of the input row to its own shape is the row. -/
theorem pay2_eq (v : Vec Ideal S1x2176 .f32) : k0_pay2 (F := Ideal) v = v := by
  unfold k0_pay2
  exact shapeCast_self _ _
/-- A reshape of the previous state to its own shape is the state. -/
theorem pay3_eq (v : Vec Ideal S1x2048 .f32) : k0_pay3 (F := Ideal) v = v := by
  unfold k0_pay3
  exact shapeCast_self _ _
/-- A reshape of the state's block to its own shape is the block. -/
theorem pay4_eq (v : Vec Ideal S1x128 .f32) : k0_pay4 (F := Ideal) v = v := by
  unfold k0_pay4
  exact shapeCast_self _ _

/-! ## The affine rows at a lane -/

/-- The reset gate's input row at lane `q`: the dot product with row `q` of its weight block, plus the bias. -/
theorem pay5_apply (v : Vec Ideal S1x2176 .f32) (w : Vec Ideal S128x2176 .f32) (b : Vec Ideal S1x128 .f32) (q : Fin 128) :
    k0_pay5 (F := Ideal) v w b (ix2 0 q)
      = Cert.GruSpec.gateSum (fun k => v (ix2 0 k)) (fun k => w (ix2 q k)) (b (ix2 0 q)) := by
  unfold k0_pay5
  show FloatOps.addf (matmul (F := Ideal) dot_S1x2176_S128x2176_S1x128_1_1_0_0_n_n none (k0_pay2 (F := Ideal) v) w (constant (F := Ideal) S1x128 .f32 0x00000000#32) (ix2 0 q))
      (shapeCast S1x128 b shapeCasts_S1x128_S1x128 (ix2 0 q)) = _
  rw [pay2_eq, shapeCast_self, matmul_x_apply]
  rfl

/-- The update gate's input row at lane `q`. -/
theorem pay6_apply (v : Vec Ideal S1x2176 .f32) (w : Vec Ideal S128x2176 .f32) (b : Vec Ideal S1x128 .f32) (q : Fin 128) :
    k0_pay6 (F := Ideal) v w b (ix2 0 q)
      = Cert.GruSpec.gateSum (fun k => v (ix2 0 k)) (fun k => w (ix2 q k)) (b (ix2 0 q)) := by
  unfold k0_pay6
  show FloatOps.addf (matmul (F := Ideal) dot_S1x2176_S128x2176_S1x128_1_1_0_0_n_n none (k0_pay2 (F := Ideal) v) w (constant (F := Ideal) S1x128 .f32 0x00000000#32) (ix2 0 q))
      (shapeCast S1x128 b shapeCasts_S1x128_S1x128 (ix2 0 q)) = _
  rw [pay2_eq, shapeCast_self, matmul_x_apply]
  rfl

/-- The candidate's input row at lane `q`. -/
theorem pay7_apply (v : Vec Ideal S1x2176 .f32) (w : Vec Ideal S128x2176 .f32) (b : Vec Ideal S1x128 .f32) (q : Fin 128) :
    k0_pay7 (F := Ideal) v w b (ix2 0 q)
      = Cert.GruSpec.gateSum (fun k => v (ix2 0 k)) (fun k => w (ix2 q k)) (b (ix2 0 q)) := by
  unfold k0_pay7
  show FloatOps.addf (matmul (F := Ideal) dot_S1x2176_S128x2176_S1x128_1_1_0_0_n_n none (k0_pay2 (F := Ideal) v) w (constant (F := Ideal) S1x128 .f32 0x00000000#32) (ix2 0 q))
      (shapeCast S1x128 b shapeCasts_S1x128_S1x128 (ix2 0 q)) = _
  rw [pay2_eq, shapeCast_self, matmul_x_apply]
  rfl

/-- The reset gate's hidden row at lane `q`. -/
theorem pay8_apply (v : Vec Ideal S1x2048 .f32) (w : Vec Ideal S128x2048 .f32) (b : Vec Ideal S1x128 .f32) (q : Fin 128) :
    k0_pay8 (F := Ideal) v w b (ix2 0 q)
      = Cert.GruSpec.gateSum (fun k => v (ix2 0 k)) (fun k => w (ix2 q k)) (b (ix2 0 q)) := by
  unfold k0_pay8
  show FloatOps.addf (matmul (F := Ideal) dot_S1x2048_S128x2048_S1x128_1_1_0_0_n_n none (k0_pay3 (F := Ideal) v) w (constant (F := Ideal) S1x128 .f32 0x00000000#32) (ix2 0 q))
      (shapeCast S1x128 b shapeCasts_S1x128_S1x128 (ix2 0 q)) = _
  rw [pay3_eq, shapeCast_self, matmul_h_apply]
  rfl

/-- The update gate's hidden product at lane `q`, before its bias: the bare dot product. -/
theorem pay9_apply (v : Vec Ideal S1x2048 .f32) (w : Vec Ideal S128x2048 .f32) (q : Fin 128) :
    k0_pay9 (F := Ideal) v w (ix2 0 q) = ∑ k : Fin 2048, v (ix2 0 k) * w (ix2 q k) := by
  unfold k0_pay9
  show matmul (F := Ideal) dot_S1x2048_S128x2048_S1x128_1_1_0_0_n_n none (k0_pay3 (F := Ideal) v) w (constant (F := Ideal) S1x128 .f32 0x00000000#32) (ix2 0 q) = _
  rw [pay3_eq, matmul_h_apply]

/-! ## The gate arithmetic -/

/-- The stored vector at an index is the cell of the six rows there: the update gate's hidden bias and the candidate's
    hidden row (a product plus its bias) are formed inside it. -/
theorem pay1_apply (v3 : FVec Ideal S1x2048 .f32) (v5 v10 v15 v20 v25 v27 : FVec Ideal S1x128 .f32)
    (v28 : Vec Ideal S1x128 .f32) (v31 : Vec Ideal S128x2048 .f32) (v33 : Vec Ideal S1x128 .f32) (j : S1x128.Idx) :
    k0_pay1 (F := Ideal) v3 v5 v10 v15 v20 v25 v27 v28 v31 v33 j
      = Cert.GruSpec.cell (v10 j) (v15 j) (v20 j) (v25 j) (FloatOps.addf (v27 j) (v28 j))
          (FloatOps.addf (matmul (F := Ideal) (φ₂ := .f32) dot_S1x2048_S128x2048_S1x128_1_1_0_0_n_n none v3 v31 (constant (F := Ideal) S1x128 .f32 0x00000000#32) j) (v33 j)) (v5 j) := by
  unfold k0_pay1
  simp only [shapeCast_self]
  rfl

/-- The block's stored vector at lane `q` is the specification's cell of the six affine rows and the previous state's
    entry. -/
theorem payload_apply (xv : Vec Ideal S1x2176 .f32) (hf : Vec Ideal S1x2048 .f32) (ht : Vec Ideal S1x128 .f32)
    (w1 w2 w3 : Vec Ideal S128x2176 .f32) (u1 u2 u3 : Vec Ideal S128x2048 .f32) (b1 b2 b3 c1 c2 c3 : Vec Ideal S1x128 .f32) (q : Fin 128) :
    k0_pay1 (F := Ideal) (k0_pay3 hf) (k0_pay4 ht) (k0_pay5 xv w1 b1) (k0_pay6 xv w2 b2) (k0_pay7 xv w3 b3) (k0_pay8 hf u1 c1) (k0_pay9 hf u2) c2 u3 c3 (ix2 0 q)
      = Cert.GruSpec.cell
          (Cert.GruSpec.gateSum (fun k => xv (ix2 0 k)) (fun k => w1 (ix2 q k)) (b1 (ix2 0 q)))
          (Cert.GruSpec.gateSum (fun k => xv (ix2 0 k)) (fun k => w2 (ix2 q k)) (b2 (ix2 0 q)))
          (Cert.GruSpec.gateSum (fun k => xv (ix2 0 k)) (fun k => w3 (ix2 q k)) (b3 (ix2 0 q)))
          (Cert.GruSpec.gateSum (fun k => hf (ix2 0 k)) (fun k => u1 (ix2 q k)) (c1 (ix2 0 q)))
          (Cert.GruSpec.gateSum (fun k => hf (ix2 0 k)) (fun k => u2 (ix2 q k)) (c2 (ix2 0 q)))
          (Cert.GruSpec.gateSum (fun k => hf (ix2 0 k)) (fun k => u3 (ix2 q k)) (c3 (ix2 0 q)))
          (ht (ix2 0 q)) := by
  rw [pay1_apply, pay3_eq, pay4_eq, pay5_apply, pay6_apply, pay7_apply, pay8_apply, pay9_apply, matmul_h_apply]
  rfl

end Cert.KernelCell

end
-- ==== Proof.KernelValue.lean ====
/-
  What the kernel's call leaves in the new-state array: the gated recurrent cell of the arrays it was called with.

  Lane `q` of the block stored at point `t` is the specification's entry `128 t + q`, and the sixteen blocks written
  back tile the array.
-/
import proofs.«166798_j28432683500169_2_alg».proof.Proof.KernelBlocks
import proofs.«166798_j28432683500169_2_alg».proof.Proof.KernelCell
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back -/

set_option maxHeartbeats 2000000 in
/-- Point `t` writes back block `t` of `Hnew`. -/
theorem flushed15_eq (c : Dev nD) (t : Fin cfg0.N) :
    (dats m 0 c).flushed 15 t = ((cfg0.win 15).blk t).view.read (Elt Ideal) (Hnew m c) := by
  have ht : t.val < 16 := by have h : t.val < cfg0.N := t.isLt; have hN : cfg0.N = 16 := N_0; omega
  show (cfg0.win 15).cut (grid0.coords t) ((dats m 0 c).after 15 t) = _
  rw [after15]
  unfold out15
  rw [View.canon_unit_zero hz]
  simp only [View.ld_unit_zero (S := S1x2176) hz, View.ld_unit_zero (S := S1x2048) hz, View.ld_unit_zero (S := S1x128) hz,
    View.ld_unit_zero (S := S128x2176) hz, View.ld_unit_zero (S := S128x2048) hz]
  funext y
  obtain ⟨p, q, rfl⟩ : ∃ (p : Fin 1) (q : Fin 128), y = ix2 p q := ⟨y 0, y 1, eq_ix2 y⟩
  obtain rfl : p = 0 := Subsingleton.elim _ _
  obtain ⟨e0, e1⟩ := idx15 t
  have hj : (((cfg0.win 15).blk t).view.emb (ix2 (0 : Fin 1) q)) 1 = unit t q := by
    apply Fin.ext
    show win0_15.index t (1 : Fin 2) * 128 + 1 * q.val = t.val * 128 + q.val
    rw [e1]; omega
  show k0_pay1 (F := Ideal) (k0_pay3 (iblk m c 1 t)) (k0_pay4 (iblk m c 2 t)) (k0_pay5 (iblk m c 0 t) (iblk m c 3 t) (iblk m c 9 t))
      (k0_pay6 (iblk m c 0 t) (iblk m c 4 t) (iblk m c 10 t)) (k0_pay7 (iblk m c 0 t) (iblk m c 5 t) (iblk m c 11 t))
      (k0_pay8 (iblk m c 1 t) (iblk m c 6 t) (iblk m c 12 t)) (k0_pay9 (iblk m c 1 t) (iblk m c 7 t)) (iblk m c 13 t) (iblk m c 8 t) (iblk m c 14 t) (ix2 0 q)
    = Hnew m c (((cfg0.win 15).blk t).view.emb (ix2 (0 : Fin 1) q))
  refine (Cert.KernelCell.payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t) q).trans ?_
  unfold Hnew Cert.GruSpec.hnew
  rw [hj]
  have r0 : (Cert.GruSpec.row 0 (unit t q)).val = t.val * 128 + q.val := by simp [Cert.GruSpec.row, unit]
  have r1 : (Cert.GruSpec.row 1 (unit t q)).val = (16 + t.val) * 128 + q.val := by simp [Cert.GruSpec.row, unit]; omega
  have r2 : (Cert.GruSpec.row 2 (unit t q)).val = (32 + t.val) * 128 + q.val := by simp [Cert.GruSpec.row, unit]; omega
  have hx : (fun k : Fin 2176 => (iblk m c 0 t : Vec Ideal S1x2176 .f32) (ix2 0 k)) = Xrow m c :=
    funext fun k => blk0_apply m c t 0 k 0 k (by simp) (by simp)
  have hh : (fun k : Fin 2048 => (iblk m c 1 t : Vec Ideal S1x2048 .f32) (ix2 0 k)) = Hrow m c :=
    funext fun k => blk1_apply m c t 0 k 0 k (by simp) (by simp)
  have hp : (iblk m c 2 t : Vec Ideal S1x128 .f32) (ix2 0 q) = Hrow m c (unit t q) :=
    blk2_apply m c t 0 q 0 (unit t q) (by simp) (by simp [unit])
  have hw1 : (fun k : Fin 2176 => (iblk m c 3 t : Vec Ideal S128x2176 .f32) (ix2 q k)) = Wih m c (Cert.GruSpec.row 0 (unit t q)) :=
    funext fun k => blk3_apply m c t q k _ k (by rw [r0]) (by simp)
  have hw2 : (fun k : Fin 2176 => (iblk m c 4 t : Vec Ideal S128x2176 .f32) (ix2 q k)) = Wih m c (Cert.GruSpec.row 1 (unit t q)) :=
    funext fun k => blk4_apply m c t q k _ k (by rw [r1]) (by simp)
  have hw3 : (fun k : Fin 2176 => (iblk m c 5 t : Vec Ideal S128x2176 .f32) (ix2 q k)) = Wih m c (Cert.GruSpec.row 2 (unit t q)) :=
    funext fun k => blk5_apply m c t q k _ k (by rw [r2]) (by simp)
  have hu1 : (fun k : Fin 2048 => (iblk m c 6 t : Vec Ideal S128x2048 .f32) (ix2 q k)) = Whh m c (Cert.GruSpec.row 0 (unit t q)) :=
    funext fun k => blk6_apply m c t q k _ k (by rw [r0]) (by simp)
  have hu2 : (fun k : Fin 2048 => (iblk m c 7 t : Vec Ideal S128x2048 .f32) (ix2 q k)) = Whh m c (Cert.GruSpec.row 1 (unit t q)) :=
    funext fun k => blk7_apply m c t q k _ k (by rw [r1]) (by simp)
  have hu3 : (fun k : Fin 2048 => (iblk m c 8 t : Vec Ideal S128x2048 .f32) (ix2 q k)) = Whh m c (Cert.GruSpec.row 2 (unit t q)) :=
    funext fun k => blk8_apply m c t q k _ k (by rw [r2]) (by simp)
  have hb1 : (iblk m c 9 t : Vec Ideal S1x128 .f32) (ix2 0 q) = Bih m c (Cert.GruSpec.row 0 (unit t q)) :=
    blk9_apply m c t 0 q 0 _ (by simp) (by rw [r0])
  have hb2 : (iblk m c 10 t : Vec Ideal S1x128 .f32) (ix2 0 q) = Bih m c (Cert.GruSpec.row 1 (unit t q)) :=
    blk10_apply m c t 0 q 0 _ (by simp) (by rw [r1])
  have hb3 : (iblk m c 11 t : Vec Ideal S1x128 .f32) (ix2 0 q) = Bih m c (Cert.GruSpec.row 2 (unit t q)) :=
    blk11_apply m c t 0 q 0 _ (by simp) (by rw [r2])
  have hc1 : (iblk m c 12 t : Vec Ideal S1x128 .f32) (ix2 0 q) = Bhh m c (Cert.GruSpec.row 0 (unit t q)) :=
    blk12_apply m c t 0 q 0 _ (by simp) (by rw [r0])
  have hc2 : (iblk m c 13 t : Vec Ideal S1x128 .f32) (ix2 0 q) = Bhh m c (Cert.GruSpec.row 1 (unit t q)) :=
    blk13_apply m c t 0 q 0 _ (by simp) (by rw [r1])
  have hc3 : (iblk m c 14 t : Vec Ideal S1x128 .f32) (ix2 0 q) = Bhh m c (Cert.GruSpec.row 2 (unit t q)) :=
    blk14_apply m c t 0 q 0 _ (by simp) (by rw [r2])
  rw [hx, hh, hp, hw1, hw2, hw3, hu1, hu2, hu3, hb1, hb2, hb3, hc1, hc2, hc3]

/-! ## The sixteen blocks tile the array -/

theorem mem_blk15 (t : Fin cfg0.N) (i : S1x2048.Idx) :
    i ∈ ((cfg0.win 15).blk t).view.set ↔ ∀ a : Fin 2, win0_15.index t a * S1x128.size a ≤ (i a).val ∧ (i a).val < win0_15.index t a * S1x128.size a + S1x128.size a := by
  show i ∈ ((View.whole main_call0_v54).slice (win0_15.rect t)).set ↔ _
  rw [View.set_slice_whole, Rect.mem_set_unit]
  exact Iff.rfl

theorem cover15' (i : S1x2048.Idx) : ∃ t : Fin cfg0.N, (cfg0.win 15).flush t = true ∧ i ∈ ((cfg0.win 15).blk t).view.set := by
  have hi0 : (i 0).val < 1 := (i 0).isLt
  have hi1 : (i 1).val < 2048 := (i 1).isLt
  have hN : cfg0.N = 16 := N_0
  let t : Fin cfg0.N := ⟨(i 1).val / 128, by rw [hN]; omega⟩
  obtain ⟨e0, e1⟩ := idx15 t
  have ht : t.val = (i 1).val / 128 := rfl
  refine ⟨t, flush0_15 t, ?_⟩
  rw [mem_blk15]
  intro a
  match a with
  | ⟨0, _⟩ => show win0_15.index t (0 : Fin 2) * 1 ≤ (i 0).val ∧ (i 0).val < win0_15.index t (0 : Fin 2) * 1 + 1; rw [e0]; omega
  | ⟨1, _⟩ => show win0_15.index t (1 : Fin 2) * 128 ≤ (i 1).val ∧ (i 1).val < win0_15.index t (1 : Fin 2) * 128 + 128; rw [e1, ht]; omega

/-- The new-state array after the call. -/
theorem final15 (c : Dev nD) : (dats m 0 c).arrAt 15 cfg0.N = Hnew m c :=
  (dats m 0 c).arrAt_eq_of_cover 15 (Hnew m c) (fun t _ => flushed15_eq m c t) (cover15' )

end Cert.KernelIdeal.Frame

end
-- ==== Proof.LibCastSame.lean ====
/-
  Moving a value along an equation of a type with itself changes nothing.

  Stated as a proposition proved from heterogeneous equality, not by unfolding: a rewriting pass that uses it
  replaces each such move by the value itself with an explicit equation at that one place, instead of asking for the
  whole surrounding term to be compared with its unfolded form.
-/

namespace Cert.CastSame

universe u

/-- A value moved along a proof that its type equals itself is the value. -/
theorem cast_same {α : Sort u} (h : α = α) (a : α) : cast h a = a := eq_of_heq (cast_heq h a)

end Cert.CastSame
-- ==== Proof.KernelResults.lean ====
/-
  The three results of the idealized program, read off its run.

  After the kernel's call the new-state array holds the cell's value `Hnew`; the host operations after the call form
  the decoder's affine map of it and its copy with a leading unit axis; the updated stack was computed before the call
  and nothing writes it afterwards.
-/
import proofs.«166798_j28432683500169_2_alg».proof.Proof.KernelIdealRun
import proofs.«166798_j28432683500169_2_alg».proof.Proof.KernelValue
import proofs.«166798_j28432683500169_2_alg».proof.Proof.LibCastSame
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The decoder's output: the new state times the transposed decoder matrix, plus the decoder bias. -/
def out0 (c : Dev nD) : Buf (Elt Ideal) ((c.tc : Thread nD τ).loc main_v0_0) :=
  addf (Host.dotGeneral (F := Ideal) (φ₁ := .f32) (φ₂ := .f32) dot_S1x2048_S2048x45_S1x45_1_0_0_1_n_n none (Hnew m c)
      (transpose S2048x45 [1, 0] ((m ((c.tc : Thread nD τ).loc main_arg12)) : FVec Ideal S45x2048 .f32) transposes_S45x2048_S2048x45_1_0))
    (broadcastInDim S1x45 ![1] bcast_S45_S1x45_1 ((m ((c.tc : Thread nD τ).loc main_arg13)) : FVec Ideal S45 .f32))

/-- The new state with a leading unit axis. -/
def out1 (c : Dev nD) : Buf (Elt Ideal) ((c.tc : Thread nD τ).loc main_v0_1) :=
  broadcastInDim S1x1x2048 ![1, 2] bcast_S1x2048_S1x1x2048_1_2 (Hnew m c)

theorem out0_eq (c : Dev nD) :
    StableHlo.after [hostOps1].flatten (Wx m c) (Proc.devRef .tc main_v0_0) = out0 m c := by
  show StableHlo.after hostOps1 (Wx m c) (Proc.devRef .tc main_v0_0) = _
  after_results
  simp only [Cert.CastSame.cast_same]
  rw [Wx_out, final15, Wx_of_ne m c main_arg12 (by decide), Wx_of_ne m c main_arg13 (by decide)]
  rw [show V0 m c (Proc.devRef .tc main_arg12) = _ from V_main_arg12 m c,
    show V0 m c (Proc.devRef .tc main_arg13) = _ from V_main_arg13 m c]
  rfl

theorem out1_eq (c : Dev nD) :
    StableHlo.after [hostOps1].flatten (Wx m c) (Proc.devRef .tc main_v0_1) = out1 m c := by
  show StableHlo.after hostOps1 (Wx m c) (Proc.devRef .tc main_v0_1) = _
  after_results
  simp only [Cert.CastSame.cast_same]
  rw [Wx_out, final15]
  rfl

theorem out2_eq (c : Dev nD) :
    StableHlo.after [hostOps1].flatten (Wx m c) (Proc.devRef .tc main_v0_2) = V m c main_v0_2 := by
  rw [StableHlo.after_of_forall_not_mem (b := Proc.devRef .tc main_v0_2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Wx_of_ne m c main_v0_2 (by decide)]

/-- The run, read: the three results and the arguments. -/
theorem run_value : θ_run defs (onTc (τ := τ) (main (F := Ideal))) ⟨m, fun _ => 0, ρ⟩ (fun r => ∀ c : Dev nD,
      r.2.mem ((c.tc : Thread nD τ).loc main_v0_0) = out0 m c
      ∧ r.2.mem ((c.tc : Thread nD τ).loc main_v0_1) = out1 m c
      ∧ r.2.mem ((c.tc : Thread nD τ).loc main_v0_2) = V m c main_v0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).2 main_v0_0 (Pipeline.mem_restRefs_of main_v0_0 (by decide) (by decide))).trans (out0_eq m c),
      ((h c).2 main_v0_1 (Pipeline.mem_restRefs_of main_v0_1 (by decide) (by decide))).trans (out1_eq m c),
      ((h c).2 main_v0_2 (Pipeline.mem_restRefs_of main_v0_2 (by decide) (by decide))).trans (out2_eq m c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).1 3).trans (((dats m 0 c).arrAt_in 3 rfl _).trans ((A_eq m c 3).trans (V_main_arg8 m c))),
      ((h c).1 6).trans (((dats m 0 c).arrAt_in 6 rfl _).trans ((A_eq m c 6).trans (V_main_arg9 m c))),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c),
      ((h c).2 main_arg13 (Pipeline.mem_restRefs_of main_arg13 (by decide) (by decide))).trans (W_main_arg13 m c)⟩) (run_main m ρ)

end Cert.KernelIdeal.Frame

end
-- ==== Proof.RefGru.lean ====
/-
  The reference's new hidden state, read index by index, is one step of the gated recurrent cell of GruSpec.

  The reference forms the two affine maps  gi = x · w_ihᵀ + b_ih  and  gh = h · w_hhᵀ + b_hh  (each a row of 6144
  entries), cuts each into three blocks of 2048 entries, and combines them:
    r = 1 / (1 + exp (-(gi[j] + gh[j]))),  z = 1 / (1 + exp (-(gi[2048 + j] + gh[2048 + j]))),
    n = tanh (gi[4096 + j] + r · gh[4096 + j]),  h'[j] = (1 - z) · n + z · h[j].
  Entry  g · 2048 + j  of an affine map is the dot product of the input row with row  g · 2048 + j  of the weight
  plus that entry of the bias (the transposed weight read at (k, r) is the weight at (r, k)); and on the extended
  reals  1 / (1 + exp (-s))  is the logistic function by definition, the word 0x3F800000 being the real one.
-/
import proofs.«166798_j28432683500169_2_alg».proof.Proof.Gen.ReferenceIdeal.Read
import proofs.«166798_j28432683500169_2_alg».proof.Proof.GruSpec
import Idealize.ShloMosaic.Lib.IdealHost

noncomputable section

namespace Cert.RefGru

open Cert.ReferenceIdeal Cert.ReferenceIdeal.Gen Cert.ReferenceIdeal.Read Idealize.ShloMosaic Idealize.ShloMosaic.TcCoe Idealize.SL.Sem Idealize.ShloMosaic.StableHlo
open Cert.GruSpec

variable (x0 : (⟨S1, .i32⟩ : BufTy).Contents (Elt Ideal)) (x1 : (⟨S1x1x2048, .f32⟩ : BufTy).Contents (Elt Ideal)) (x2 : (⟨S1x200x128, .f32⟩ : BufTy).Contents (Elt Ideal)) (x3 : (⟨S45x2048, .f32⟩ : BufTy).Contents (Elt Ideal)) (x4 : (⟨S3x2048, .f32⟩ : BufTy).Contents (Elt Ideal)) (x5 : (⟨S3, .f32⟩ : BufTy).Contents (Elt Ideal)) (x6 : (⟨S128x2048, .f32⟩ : BufTy).Contents (Elt Ideal)) (x7 : (⟨S128, .f32⟩ : BufTy).Contents (Elt Ideal)) (x8 : (⟨S6144x2176, .f32⟩ : BufTy).Contents (Elt Ideal)) (x9 : (⟨S6144x2048, .f32⟩ : BufTy).Contents (Elt Ideal)) (x10 x11 : (⟨S6144, .f32⟩ : BufTy).Contents (Elt Ideal))

/-! ### The two affine maps, one entry at a time -/

/-- Entry `r` of  x · w_ihᵀ + b_ih : the dot product of the input row with row `r` of the weight, plus the bias. -/
theorem gi_row (r : Fin 6144) :
    val_main_v55 (F := Ideal) x0 x1 x2 x3 x4 x5 x6 x7 x8 x10 (ValueIdx.ix2 (0 : Fin 1) r)
      = gateSum (fun k => val_main_v51 (F := Ideal) x0 x1 x2 x3 x4 x5 x6 x7 (ValueIdx.ix2 0 k))
          (fun k => x8 (ValueIdx.ix2 r k)) (x10 (ValueIdx.ix1 r)) := by
  rw [val_main_v55_apply, val_main_v53_apply, val_main_v54_apply]
  generalize val_main_v51 (F := Ideal) x0 x1 x2 x3 x4 x5 x6 x7 = y
  unfold gateSum
  have e54 : idx_main_v54 (ValueIdx.ix2 (0 : Fin 1) r) = ValueIdx.ix1 r := funext fun a => match a with
    | ⟨0, _⟩ => rfl
  rw [e54]
  congr 1
  refine Finset.sum_congr rfl fun k _ => ?_
  rw [val_main_v52_apply]
  have el : lidx_main_v53 (ValueIdx.ix2 (0 : Fin 1) r) k = ValueIdx.ix2 0 k := funext fun a => match a with
    | ⟨0, _⟩ => rfl
    | ⟨1, _⟩ => rfl
  have er : idx_main_v52 (ridx_main_v53 (ValueIdx.ix2 (0 : Fin 1) r) k) = ValueIdx.ix2 r k := funext fun a => match a with
    | ⟨0, _⟩ => rfl
    | ⟨1, _⟩ => rfl
  rw [el, er]

/-- Entry `r` of  h · w_hhᵀ + b_hh . -/
theorem gh_row (r : Fin 6144) :
    val_main_v59 (F := Ideal) x1 x9 x11 (ValueIdx.ix2 (0 : Fin 1) r)
      = gateSum (fun k => val_main_v0 (F := Ideal) x1 (ValueIdx.ix2 0 k))
          (fun k => x9 (ValueIdx.ix2 r k)) (x11 (ValueIdx.ix1 r)) := by
  rw [val_main_v59_apply, val_main_v57_apply, val_main_v58_apply]
  generalize val_main_v0 (F := Ideal) x1 = y
  unfold gateSum
  have e58 : idx_main_v58 (ValueIdx.ix2 (0 : Fin 1) r) = ValueIdx.ix1 r := funext fun a => match a with
    | ⟨0, _⟩ => rfl
  rw [e58]
  congr 1
  refine Finset.sum_congr rfl fun k _ => ?_
  rw [val_main_v56_apply]
  have el : lidx_main_v57 (ValueIdx.ix2 (0 : Fin 1) r) k = ValueIdx.ix2 0 k := funext fun a => match a with
    | ⟨0, _⟩ => rfl
    | ⟨1, _⟩ => rfl
  have er : idx_main_v56 (ridx_main_v57 (ValueIdx.ix2 (0 : Fin 1) r) k) = ValueIdx.ix2 r k := funext fun a => match a with
    | ⟨0, _⟩ => rfl
    | ⟨1, _⟩ => rfl
  rw [el, er]

/-! ### The three blocks of each affine map: block `g` at `j` is entry `g * 2048 + j` -/

theorem idx60 (j : Fin 2048) :
    idx_main_v60 (ValueIdx.ix2 (0 : Fin 1) j) = ValueIdx.ix2 (0 : Fin 1) (row 0 j) :=
  funext fun a => match a with
    | ⟨0, _⟩ => rfl
    | ⟨1, _⟩ => Fin.ext (by show j.val = 0 * 2048 + j.val; omega)

theorem idx61 (j : Fin 2048) :
    idx_main_v61 (ValueIdx.ix2 (0 : Fin 1) j) = ValueIdx.ix2 (0 : Fin 1) (row 1 j) :=
  funext fun a => match a with
    | ⟨0, _⟩ => rfl
    | ⟨1, _⟩ => Fin.ext (by show 2048 + j.val = 1 * 2048 + j.val; omega)

theorem idx62 (j : Fin 2048) :
    idx_main_v62 (ValueIdx.ix2 (0 : Fin 1) j) = ValueIdx.ix2 (0 : Fin 1) (row 2 j) :=
  funext fun a => match a with
    | ⟨0, _⟩ => rfl
    | ⟨1, _⟩ => Fin.ext (by show 4096 + j.val = 2 * 2048 + j.val; omega)

theorem idx63 (j : Fin 2048) :
    idx_main_v63 (ValueIdx.ix2 (0 : Fin 1) j) = ValueIdx.ix2 (0 : Fin 1) (row 0 j) :=
  funext fun a => match a with
    | ⟨0, _⟩ => rfl
    | ⟨1, _⟩ => Fin.ext (by show j.val = 0 * 2048 + j.val; omega)

theorem idx64 (j : Fin 2048) :
    idx_main_v64 (ValueIdx.ix2 (0 : Fin 1) j) = ValueIdx.ix2 (0 : Fin 1) (row 1 j) :=
  funext fun a => match a with
    | ⟨0, _⟩ => rfl
    | ⟨1, _⟩ => Fin.ext (by show 2048 + j.val = 1 * 2048 + j.val; omega)

theorem idx65 (j : Fin 2048) :
    idx_main_v65 (ValueIdx.ix2 (0 : Fin 1) j) = ValueIdx.ix2 (0 : Fin 1) (row 2 j) :=
  funext fun a => match a with
    | ⟨0, _⟩ => rfl
    | ⟨1, _⟩ => Fin.ext (by show 4096 + j.val = 2 * 2048 + j.val; omega)

theorem v60_at (j : Fin 2048) :
    val_main_v60 (F := Ideal) x0 x1 x2 x3 x4 x5 x6 x7 x8 x10 (ValueIdx.ix2 (0 : Fin 1) j)
      = gateSum (fun k => val_main_v51 (F := Ideal) x0 x1 x2 x3 x4 x5 x6 x7 (ValueIdx.ix2 (0 : Fin 1) k))
          (fun k => x8 (ValueIdx.ix2 (row 0 j) k)) (x10 (ValueIdx.ix1 (row 0 j))) := by
  rw [val_main_v60_apply, idx60, gi_row]

theorem v61_at (j : Fin 2048) :
    val_main_v61 (F := Ideal) x0 x1 x2 x3 x4 x5 x6 x7 x8 x10 (ValueIdx.ix2 (0 : Fin 1) j)
      = gateSum (fun k => val_main_v51 (F := Ideal) x0 x1 x2 x3 x4 x5 x6 x7 (ValueIdx.ix2 (0 : Fin 1) k))
          (fun k => x8 (ValueIdx.ix2 (row 1 j) k)) (x10 (ValueIdx.ix1 (row 1 j))) := by
  rw [val_main_v61_apply, idx61, gi_row]

theorem v62_at (j : Fin 2048) :
    val_main_v62 (F := Ideal) x0 x1 x2 x3 x4 x5 x6 x7 x8 x10 (ValueIdx.ix2 (0 : Fin 1) j)
      = gateSum (fun k => val_main_v51 (F := Ideal) x0 x1 x2 x3 x4 x5 x6 x7 (ValueIdx.ix2 (0 : Fin 1) k))
          (fun k => x8 (ValueIdx.ix2 (row 2 j) k)) (x10 (ValueIdx.ix1 (row 2 j))) := by
  rw [val_main_v62_apply, idx62, gi_row]

theorem v63_at (j : Fin 2048) :
    val_main_v63 (F := Ideal) x1 x9 x11 (ValueIdx.ix2 (0 : Fin 1) j)
      = gateSum (fun k => val_main_v0 (F := Ideal) x1 (ValueIdx.ix2 (0 : Fin 1) k))
          (fun k => x9 (ValueIdx.ix2 (row 0 j) k)) (x11 (ValueIdx.ix1 (row 0 j))) := by
  rw [val_main_v63_apply, idx63, gh_row]

theorem v64_at (j : Fin 2048) :
    val_main_v64 (F := Ideal) x1 x9 x11 (ValueIdx.ix2 (0 : Fin 1) j)
      = gateSum (fun k => val_main_v0 (F := Ideal) x1 (ValueIdx.ix2 (0 : Fin 1) k))
          (fun k => x9 (ValueIdx.ix2 (row 1 j) k)) (x11 (ValueIdx.ix1 (row 1 j))) := by
  rw [val_main_v64_apply, idx64, gh_row]

theorem v65_at (j : Fin 2048) :
    val_main_v65 (F := Ideal) x1 x9 x11 (ValueIdx.ix2 (0 : Fin 1) j)
      = gateSum (fun k => val_main_v0 (F := Ideal) x1 (ValueIdx.ix2 (0 : Fin 1) k))
          (fun k => x9 (ValueIdx.ix2 (row 2 j) k)) (x11 (ValueIdx.ix1 (row 2 j))) := by
  rw [val_main_v65_apply, idx65, gh_row]

/-! ### The gates -/

/-- On the extended reals  1 / (1 + exp (-s))  is the logistic function; the word 0x3F800000 is the real one. -/
theorem sigmoid_eq (s : R) :
    FloatOps.hostDivf (FloatOps.ofBits (F := Ideal) .f32 0x3F800000#32)
        (FloatOps.addf (FloatOps.ofBits (F := Ideal) .f32 0x3F800000#32) (FloatOps.hostUnary .exp (FloatOps.hostNegf s)))
      = FloatOps.logistic s := by
  rw [Ideal.ofBits_def, Ideal.ofBits_one_f32]
  rfl

/-- The reset gate: the logistic function of the sum of the first blocks. -/
theorem r_at (i : S1x2048.Idx) :
    val_main_v72 (F := Ideal) x0 x1 x2 x3 x4 x5 x6 x7 x8 x9 x10 x11 i
      = (FloatOps.logistic (F := Ideal) (φ := .f32) (FloatOps.addf (F := Ideal) (φ := .f32) (val_main_v60 (F := Ideal) x0 x1 x2 x3 x4 x5 x6 x7 x8 x10 i) (val_main_v63 (F := Ideal) x1 x9 x11 i)) : R) := by
  rw [val_main_v72_apply, val_main_v71_apply, val_main_cst_5_apply, val_main_v70_apply, val_main_v69_apply,
    val_main_cst_4_apply, val_main_v68_apply, val_main_v67_apply, val_main_v66_apply]
  exact sigmoid_eq _

/-- The update gate: the logistic function of the sum of the second blocks. -/
theorem z_at (i : S1x2048.Idx) :
    val_main_v79 (F := Ideal) x0 x1 x2 x3 x4 x5 x6 x7 x8 x9 x10 x11 i
      = (FloatOps.logistic (F := Ideal) (φ := .f32) (FloatOps.addf (F := Ideal) (φ := .f32) (val_main_v61 (F := Ideal) x0 x1 x2 x3 x4 x5 x6 x7 x8 x10 i) (val_main_v64 (F := Ideal) x1 x9 x11 i)) : R) := by
  rw [val_main_v79_apply, val_main_v78_apply, val_main_cst_7_apply, val_main_v77_apply, val_main_v76_apply,
    val_main_cst_6_apply, val_main_v75_apply, val_main_v74_apply, val_main_v73_apply]
  exact sigmoid_eq _

/-! ### The new state -/

/-- The reference's new hidden state at `i` is the cell's at hidden unit `i 1`. -/
theorem ref_hnew (i : S1x2048.Idx) :
    val_main_v87 (F := Ideal) x0 x1 x2 x3 x4 x5 x6 x7 x8 x9 x10 x11 i
      = hnew (fun k => val_main_v51 (F := Ideal) x0 x1 x2 x3 x4 x5 x6 x7 (ValueIdx.ix2 0 k))
          (fun k => val_main_v0 (F := Ideal) x1 (ValueIdx.ix2 0 k))
          (fun r k => x8 (ValueIdx.ix2 r k)) (fun r k => x9 (ValueIdx.ix2 r k))
          (fun r => x10 (ValueIdx.ix1 r)) (fun r => x11 (ValueIdx.ix1 r)) (i 1) := by
  obtain ⟨a, j, rfl⟩ : ∃ (a : Fin 1) (j : Fin 2048), i = ValueIdx.ix2 a j := ⟨i 0, i 1, ValueIdx.eq_ix2 i⟩
  obtain rfl : a = 0 := Subsingleton.elim _ _
  show _ = hnew _ _ _ _ _ _ j
  rw [val_main_v87_apply, val_main_v85_apply, val_main_v86_apply, val_main_v84_apply, val_main_v83_apply,
    val_main_cst_8_apply, val_main_v82_apply, val_main_v81_apply, val_main_v80_apply, z_at, r_at,
    v60_at, v61_at, v62_at, v63_at, v64_at, v65_at]
  rfl

end Cert.RefGru

end
-- ==== Proof.HostPrefix.lean ====
/-
  The host operations that run before the kernel's call compute the same values as the reference's first
  operations: the reshaped previous state, the updated stack, the concatenated input row; the two bias vectors are
  reshaped to one row; the weight matrices are untouched.
-/
import proofs.«166798_j28432683500169_2_alg».proof.Proof.Gen.KernelIdeal.Launch
import proofs.«166798_j28432683500169_2_alg».proof.Proof.Gen.ReferenceIdeal.Read
import proofs.«166798_j28432683500169_2_alg».proof.Proof.LibCastSame
import Idealize.ShloMosaic.Lib.StableHlo.Run
import Idealize.ShloMosaic.Lib.Pipeline.Value
import Idealize.ShloMosaic.Lib.ValueIdx

noncomputable section

namespace Cert.HostPrefix

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- The contents of buffer `b` on device `c` after the host operations that precede the call. -/
abbrev Vb (b : Ref sig .tc) : Buf (Elt F) ((c : Thread nD τ).loc b) :=
  StableHlo.after (List.flatten [hostOps0]) (fun b => m (c, b)) (Proc.devRef .tc b)

/-! ## The weights: no operation writes an argument -/

set_option maxRecDepth 8192 in
/-- The input weights are the argument's contents. -/
theorem wih_eq : Vb m c main_arg8 = m ((c.tc : Thread nD τ).loc main_arg8) := by
  show StableHlo.after hostOps0 (fun b => m (c, b)) (Proc.devRef .tc main_arg8) = _
  after_results_simp <;> rfl

set_option maxRecDepth 8192 in
/-- The recurrent weights are the argument's contents. -/
theorem whh_eq : Vb m c main_arg9 = m ((c.tc : Thread nD τ).loc main_arg9) := by
  show StableHlo.after hostOps0 (fun b => m (c, b)) (Proc.devRef .tc main_arg9) = _
  after_results_simp <;> rfl

/-! ## The biases: each vector reshaped to one row -/

set_option maxRecDepth 8192 in
/-- The input bias as one row. -/
theorem bih_eq : Vb m c main_call0_v52
    = shapeCast _ (m ((c.tc : Thread nD τ).loc main_arg10)) shapeCasts_S6144_S1x6144 := by
  show StableHlo.after hostOps0 (fun b => m (c, b)) (Proc.devRef .tc main_call0_v52) = _
  after_results_simp <;> rfl

set_option maxRecDepth 8192 in
/-- The recurrent bias as one row. -/
theorem bhh_eq : Vb m c main_call0_v53
    = shapeCast _ (m ((c.tc : Thread nD τ).loc main_arg11)) shapeCasts_S6144_S1x6144 := by
  show StableHlo.after hostOps0 (fun b => m (c, b)) (Proc.devRef .tc main_call0_v53) = _
  after_results_simp <;> rfl

/-- The input bias row read at column `r` is the vector's entry `r`: both sit at position `r` in row-major order. -/
theorem bih_apply (r : Fin 6144) :
    (Vb m c main_call0_v52 : S1x6144.Idx → Elt F .f32) (ValueIdx.ix2 0 r)
      = (m ((c.tc : Thread nD τ).loc main_arg10) : S6144.Idx → Elt F .f32) (ValueIdx.ix1 r) := by
  rw [bih_eq]
  exact shapeCast_apply _ shapeCasts_S6144_S1x6144 (ValueIdx.ix2 0 r) (ValueIdx.ix1 r)
    (by rewrite [Shape.rowMajor_val_one, Shape.rowMajor_val_two]; show r.val = 0 * 6144 + r.val; omega)

/-- The recurrent bias row read at column `r` is the vector's entry `r`. -/
theorem bhh_apply (r : Fin 6144) :
    (Vb m c main_call0_v53 : S1x6144.Idx → Elt F .f32) (ValueIdx.ix2 0 r)
      = (m ((c.tc : Thread nD τ).loc main_arg11) : S6144.Idx → Elt F .f32) (ValueIdx.ix1 r) := by
  rw [bhh_eq]
  exact shapeCast_apply _ shapeCasts_S6144_S1x6144 (ValueIdx.ix2 0 r) (ValueIdx.ix1 r)
    (by rewrite [Shape.rowMajor_val_one, Shape.rowMajor_val_two]; show r.val = 0 * 6144 + r.val; omega)

/-! ## The values the reference computes first -/

set_option maxRecDepth 8192 in
/-- The previous state as one row: the reference's first reshape. -/
theorem h_eq : Vb m c main_call0_v0 = Cert.ReferenceIdeal.Read.val_main_v0 (F := F) (m ((c.tc : Thread nD τ).loc main_arg1)) := by
  show StableHlo.after hostOps0 (fun b => m (c, b)) (Proc.devRef .tc main_call0_v0) = _
  after_results_simp <;> rfl

set_option maxRecDepth 8192 in
set_option maxHeartbeats 4000000 in
/-- The updated stack: the reference's operation 41. -/
theorem stack_eq : Vb m c main_v0_2
    = Cert.ReferenceIdeal.Read.val_main_v41 (F := F) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  show StableHlo.after hostOps0 (fun b => m (c, b)) (Proc.devRef .tc main_v0_2) = _
  after_results_simp <;> rfl

set_option maxRecDepth 8192 in
set_option maxHeartbeats 4000000 in
/-- The input row: the embedding row chosen by the token, joined with the top of the updated stack — the reference's
    operation 51. -/
theorem x_eq : Vb m c main_call0_v51
    = Cert.ReferenceIdeal.Read.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps0 (fun b => m (c, b)) (Proc.devRef .tc main_call0_v51) = _
  after_results_simp
  -- the moves of a value along an equation of its type with itself are dropped before the two terms are compared
  simp only [Cert.CastSame.cast_same]
  rfl

end Cert.HostPrefix

end
-- ==== Proof.Bridge.lean ====
/-
  The idealized kernel program's results are the reference's stages of the same arguments.

  The host operations before the kernel's call are the reference's first operations, so the arrays the call finds are
  the reference's input row, previous state, weights and biases; the call leaves the cell's value, which is the
  reference's new state index by index; and the host operations after the call are the reference's last operations.
-/
import proofs.«166798_j28432683500169_2_alg».proof.Proof.KernelResults
import proofs.«166798_j28432683500169_2_alg».proof.Proof.RefGru
import proofs.«166798_j28432683500169_2_alg».proof.Proof.HostPrefix

set_option maxRecDepth 16384

noncomputable section

namespace Cert.Bridge

open Cert.KernelIdeal Cert.KernelIdeal.Gen Cert.KernelIdeal.Frame
open Idealize.ShloMosaic Idealize.ShloMosaic.TcCoe Idealize.SL.Sem Idealize.ShloMosaic.ValueIdx

variable (m : (ℓ : Loc nD τ sig) → Buf (Elt Ideal) ℓ) (c : Dev nD)

/-- The new state the call leaves is the reference's new state. -/
theorem hnew_ref : Hnew m c = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  rw [Cert.RefGru.ref_hnew]
  have hX : Xrow m c = fun k => Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 0 k) :=
    funext fun k => congrFun (Cert.HostPrefix.x_eq m c) (ix2 0 k)
  have hH : Hrow m c = fun k => Cert.ReferenceIdeal.Read.val_main_v0 (F := Ideal) (m ((c.tc : Thread nD τ).loc main_arg1)) (ix2 0 k) :=
    funext fun k => congrFun (Cert.HostPrefix.h_eq m c) (ix2 0 k)
  have hW : Wih m c = fun r k => ((m ((c.tc : Thread nD τ).loc main_arg8)) : S6144x2176.Idx → Elt Ideal .f32) (ix2 r k) :=
    funext fun r => funext fun k => congrFun (Cert.HostPrefix.wih_eq m c) (ix2 r k)
  have hU : Whh m c = fun r k => ((m ((c.tc : Thread nD τ).loc main_arg9)) : S6144x2048.Idx → Elt Ideal .f32) (ix2 r k) :=
    funext fun r => funext fun k => congrFun (Cert.HostPrefix.whh_eq m c) (ix2 r k)
  have hB : Bih m c = fun r => ((m ((c.tc : Thread nD τ).loc main_arg10)) : S6144.Idx → Elt Ideal .f32) (ix1 r) :=
    funext fun r => Cert.HostPrefix.bih_apply m c r
  have hC : Bhh m c = fun r => ((m ((c.tc : Thread nD τ).loc main_arg11)) : S6144.Idx → Elt Ideal .f32) (ix1 r) :=
    funext fun r => Cert.HostPrefix.bhh_apply m c r
  unfold Hnew
  rw [hX, hH, hW, hU, hB, hC]

/-- The decoder's output is the reference's. -/
theorem out0_ref : out0 m c = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold out0 Cert.ReferenceIdeal.Read.val_main_v91 Cert.ReferenceIdeal.Read.val_main_v89 Cert.ReferenceIdeal.Read.val_main_v88 Cert.ReferenceIdeal.Read.val_main_v90
  rw [hnew_ref]
  rfl

/-- The new state with a leading unit axis is the reference's. -/
theorem out1_ref : out1 m c = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold out1 Cert.ReferenceIdeal.Read.val_main_v92
  rw [hnew_ref]

/-- The updated stack is the reference's. -/
theorem out2_ref : V m c main_v0_2 = Cert.ReferenceIdeal.Read.val_main_v41 (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  Cert.HostPrefix.stack_eq m c

end Cert.Bridge

end
-- ==== Proof.lean ====
/-
  The certificate of one step of a stack-augmented recurrent network: a gated recurrent cell whose gate products are
  computed by a kernel over sixteen blocks of 128 hidden units, against the same step written with whole matrix
  products.

  Both programs first update a differentiable stack and embed the input token with host operations that are the same
  in both. The kernel then reads, per block, that block's rows of the stacked input and hidden weights (three gates
  each) and bias rows, and forms h' = (1 - z) n + z h with r, z the logistic of the summed gate pre-activations and
  n = tanh(i_n + r h_n); the reference forms the two whole affine maps x W_ihᵀ + b_ih and h W_hhᵀ + b_hh, slices the
  three gates out of each, and combines them the same way, its logistic spelt 1 / (1 + exp(-s)). On the extended
  reals the two agree entry by entry with no algebra beyond reading each side's sums row by row: entry 128 t + q of
  the kernel's block t is the reference's entry, a row sum over the same index set of the same products. The decoder's
  affine map of the new state and the new state's copy with a unit axis are then the same host operations on equal
  arrays, and the updated stack is computed before the kernel is called.

  The kernel's windows share arrays (the previous state is read whole and by blocks; each weight and bias array
  through three windows), so each window holds a part of its array's share while the kernel runs; the arrays are
  dealt to the windows at the call's entry and joined again at its exit. No operation of the kernel is replaced when
  it is read on the extended reals, so the idealized kernel is the kernel's own text and there is nothing to preserve.
-/
import proofs.«166798_j28432683500169_2_alg».proof.Defs
import proofs.«166798_j28432683500169_2_alg».proof.Proof.Gen.Kernel
import proofs.«166798_j28432683500169_2_alg».proof.Proof.Gen.KernelIdeal
import proofs.«166798_j28432683500169_2_alg».proof.Proof.Gen.ReferenceIdeal
import proofs.«166798_j28432683500169_2_alg».proof.Proof.Gen.Pre_finite_inputs
import proofs.«166798_j28432683500169_2_alg».proof.Proof.Gen.ReferenceIdeal.Read
import proofs.«166798_j28432683500169_2_alg».proof.Proof.KernelRun
import proofs.«166798_j28432683500169_2_alg».proof.Proof.KernelIdealRun
import proofs.«166798_j28432683500169_2_alg».proof.Proof.KernelResults
import proofs.«166798_j28432683500169_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : @Cert.frame_Kernel Cert.Kernel.Gen.facts Cert.Pre_finite_inputs.Gen.facts :=
  fun m ρ _ => Cert.Kernel.Frame.frame (F := Bits) m ρ

/-- The idealized kernel program runs and leaves its arguments unchanged. -/
theorem frame_ki : @Cert.frame_KernelIdeal Cert.KernelIdeal.Gen.facts Cert.Pre_finite_inputs.Gen.facts :=
  fun m ρ _ => Cert.KernelIdeal.Frame.frame (F := Ideal) m ρ

/-- The reference runs and leaves its arguments unchanged: its run with the results dropped. -/
theorem frame_r : @Cert.frame_ReferenceIdeal Cert.ReferenceIdeal.Gen.facts Cert.Pre_finite_inputs.Gen.facts :=
  fun m ρ _ => (θ_run Cert.ReferenceIdeal.defs _ _).mono (fun _ h c => (h c).2.2.2)
    (Cert.ReferenceIdeal.Value.run (F := Ideal) m ρ)

/-- From memories agreeing on the arguments the two idealized programs end with equal results: the decoder's output,
    the new state and the updated stack are each one function of the arguments on both sides. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Frame.out0 m c, fun c => Cert.KernelIdeal.Frame.out1 m c,
    fun c => Cert.KernelIdeal.Frame.V m c Cert.KernelIdeal.main_v0_2, Cert.KernelIdeal.Frame.run_value m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10, a11, a12, a13⟩ := hagree c
  refine ⟨h0.trans ?_, h1.trans ?_, h2.trans ?_, hargs⟩
  · rw [Cert.ReferenceIdeal.Read.val_main_v91_eq, a0, a1, a2, a3, a4, a5, a6, a7, a8, a9, a10, a11, a12, a13]
    exact (Cert.Bridge.out0_ref m c).symm
  · rw [Cert.ReferenceIdeal.Read.val_main_v92_eq, a0, a1, a2, a3, a4, a5, a6, a7, a8, a9, a10, a11]
    exact (Cert.Bridge.out1_ref m c).symm
  · rw [Cert.ReferenceIdeal.Read.val_main_v41_eq, a1, a2, a4, a5, a6, a7]
    exact (Cert.Bridge.out2_ref m c).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
